-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S4x4096x256 .f32) (main_arg1 : FVec F S4x4096x256 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S4x4096x256 : Shape := ⟨3, ![4, 4096, 256]⟩
abbrev S256x256 : Shape := ⟨2, ![256, 256]⟩
abbrev S256 : Shape := ⟨1, ![256]⟩
abbrev S1x256 : Shape := ⟨2, ![1, 256]⟩
abbrev S1x2048x256 : Shape := ⟨3, ![1, 2048, 256]⟩
abbrev S1x1024x256 : Shape := ⟨3, ![1, 1024, 256]⟩
abbrev S2048x256 : Shape := ⟨2, ![2048, 256]⟩
abbrev S2048x1 : Shape := ⟨2, ![2048, 1]⟩
abbrev S1024x256 : Shape := ⟨2, ![1024, 256]⟩
abbrev S2048x1024 : Shape := ⟨2, ![2048, 1024]⟩
abbrev S2048 : Shape := ⟨1, ![2048]⟩

abbrev nBuf : Space → Nat
  | .hbm => 15
  | .vmem => 16
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S4x4096x256, .f32⟩
  | .local _ .vmem, ⟨0, _⟩ => ⟨S1x2048x256, .f32⟩
  | .local _ .vmem, ⟨1, _⟩ => ⟨S1x2048x256, .f32⟩
  | .local _ .vmem, ⟨2, _⟩ => ⟨S1x1024x256, .f32⟩
  | .local _ .vmem, ⟨3, _⟩ => ⟨S1x1024x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S1x2048x256, .f32⟩
  | .local _ .vmem, ⟨11, _⟩ => ⟨S1x2048x256, .f32⟩
  | .local _ .vmem, ⟨12, _⟩ => ⟨S2048x256, .f32⟩
  | .local _ .vmem, ⟨13, _⟩ => ⟨S2048x1, .f32⟩
  | .local _ .vmem, ⟨14, _⟩ => ⟨S2048x1, .f32⟩
  | .local _ .vmem, ⟨15, _⟩ => ⟨S2048x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v49 : BitVec 1 := Scalar.cmpi .eq arg2 c3_i32
  let v50 : BitVec 32 := Scalar.extui v49
  let c0_i32_30 : BitVec 32 := 0#32
  let v51 : BitVec 1 := Scalar.cmpi .ne v50 c0_i32_30
  v51

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

class Facts₀ : Prop where
  transposes_S256x256_S256x256_1_0 : S256x256.Transposes [1, 0] S256x256
  shapeCasts_S256_S1x256 : S256.ShapeCasts S1x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  broadcasts_S1x256_S1024x256 : S1x256.Broadcasts S1024x256
  reduces_S2048x1024_S2048 : S2048x1024.Reduces [1] S2048
  shapeCasts_S2048_S2048x1 : S2048.ShapeCasts S2048x1
  broadcasts_S2048x1_S2048x1024 : S2048x1.Broadcasts S2048x1024
  broadcasts_S2048x1_S2048x256 : S2048x1.Broadcasts S2048x256
  shapeCasts_S2048x256_S1x2048x256 : S2048x256.ShapeCasts S1x2048x256
  dot_S2048x256_S256x256_S2048x256_1_0_0_1_n_n_wf : DotDims.WF S2048x256 S256x256 S2048x256 [1] [0] [0] [1] [] []
  dot_S1024x256_S256x256_S1024x256_1_0_0_1_n_n_wf : DotDims.WF S1024x256 S256x256 S1024x256 [1] [0] [0] [1] [] []
  dot_S2048x256_S1024x256_S2048x1024_1_1_0_0_n_n_wf : DotDims.WF S2048x256 S1024x256 S2048x1024 [1] [1] [0] [0] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S4x4096x256.size a
  hwx0_0 : ∀ i : grid0.Coords, EltTy.bits .f32 = 32 ∨ (Rect.block (s := S4x4096x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S4x4096x256.size a
  hwx0_1 : ∀ i : grid0.Coords, EltTy.bits .f32 = 32 ∨ (Rect.block (s := S4x4096x256) S1x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048x256.size a ≤ S4x4096x256.size a
  hwx0_8 : ∀ i : grid0.Coords, EltTy.bits .f32 = 32 ∨ (Rect.block (s := S4x4096x256) S1x2048x256.size (cc0_transform_8 i) (hinb0_8 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S4x4096x256, .f32⟩
  | .hbm, ⟨9, _⟩ => ⟨S1x1x256, .f32⟩
  | .hbm, ⟨10, _⟩ => ⟨S4x4096x256, .f32⟩
  | .hbm, ⟨11, _⟩ => ⟨S4x4096x256, .f32⟩
  | .hbm, ⟨12, _⟩ => ⟨S4x4096x256, .f32⟩
  | .hbm, ⟨13, _⟩ => ⟨S1x1x256, .f32⟩
  | .hbm, ⟨14, _⟩ => ⟨S4x4096x256, .f32⟩
  | .hbm, ⟨15, _⟩ => ⟨S4x4096x256, .f32⟩
  | .hbm, ⟨16, _⟩ => ⟨S4x4096x256, .f32⟩
  | .hbm, ⟨17, _⟩ => ⟨S1x1x256, .f32⟩
  | .hbm, ⟨18, _⟩ => ⟨S4x4096x256, .f32⟩
  | .hbm, ⟨19, _⟩ => ⟨S4x4096x256, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.Finite.lean ====
/-
  From "every float input is finite" to "every input array is the coercion of a real array".

  The precondition evaluates, for each of the eight input arrays `v`, the test
  `all (|v| < +∞)` and joins the eight results by `and`; it states that the outcome is 1.
  At the ideal instance a float is an extended real, `|x|` is `max x (-x)`, the pattern
  `0x7F800000` denotes `⊤`, and the comparison is the order's.  Hence every entry `x` of every
  input satisfies `max x (-x) < ⊤`, which excludes both `⊤` and `⊥`: the entry is a real,
  and the array is the pointwise coercion of the array of its real parts.
-/
import proofs.«142110_j22110491639926_2_alg».proof.Defs
import Idealize.ShloMosaic.Lib.ReduceAll
import Idealize.ShloMosaic.Lib.ValueIdx

noncomputable section

namespace Cert.Proof.Finite

open Idealize.ShloMosaic Idealize.SL.Sem

/-- An extended real whose absolute value `max x (-x)` is below `⊤` is neither `⊤` nor `⊥`:
    it is a real. -/
theorem coe_of_abs_lt_top (x : EReal) (h : max x (-x) < ⊤) : ∃ r : ℝ, x = (r : EReal) := by
  induction x using EReal.rec with
  | bot => simp at h
  | coe r => exact ⟨r, rfl⟩
  | top => simp at h

/-- An array all of whose entries have absolute value below `⊤` is the coercion of a real
    array, namely of its entries' real parts. -/
theorem real_of_all {ι : Type} (v : ι → EReal) (h : ∀ i, max (v i) (-(v i)) < ⊤) :
    ∃ x : ι → ℝ, v = fun i => ((x i : ℝ) : EReal) :=
  ⟨fun i => (v i).toReal, funext fun i => by
    obtain ⟨r, hr⟩ := coe_of_abs_lt_top (v i) (h i)
    show v i = (((v i).toReal : ℝ) : EReal)
    rw [hr, EReal.toReal_coe]⟩

/-- The rank-0 shape has exactly one index. -/
instance : Subsingleton Cert.Pre_finite_inputs.S_.Idx := ⟨fun a b => funext fun d => d.elim0⟩

/-- A one-bit word made from a Boolean is 1 exactly when the Boolean is true. -/
theorem ofBool_eq_one {b : Bool} : BitVec.ofBool b = 1#1 ↔ b = true := by cases b <;> decide

/-- The binary32 pattern `0x7F800000` (sign 0, exponent all ones, significand 0) denotes `+∞`. -/
theorem ofBits_inf : Ideal.ofBits .f32 0x7F800000#32 = (⊤ : EReal) := by
  simp [Ideal.ofBits, Ideal.ieee]

/-- The element test of the precondition: if `|v i| < +∞` evaluates to 1 then
    `max (v i) (-(v i)) < ⊤`. -/
theorem abs_lt_top_of_cmp {s : Shape}
    (hb : Cert.Pre_finite_inputs.S_.BroadcastsInDim s (![] : Fin 0 → Fin s.rank))
    (v : FVec Ideal s .f32) (i : s.Idx)
    (h : cmpf .olt (Host.absf v)
      (broadcastInDim s ![] hb (constant Cert.Pre_finite_inputs.S_ .f32 0x7F800000#32)) i = 1#1) :
    max (v i) (-(v i)) < ⊤ := by
  have h' : BitVec.ofBool (decide (max (v i) (-(v i)) < Ideal.ofBits .f32 0x7F800000#32)) = 1#1 := h
  rw [ofBits_inf] at h'
  exact of_decide_eq_true (ofBool_eq_one.1 h')

/-- One `all (|v| < +∞)` of the precondition, at any input shape: if the reduction by `and` of
    the element tests is 1 then `v` is the coercion of a real array. -/
theorem real_of_reduce {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (v : FVec Ideal s .f32) (init : IVec Cert.Pre_finite_inputs.S_ 1) (j : Cert.Pre_finite_inputs.S_.Idx)
    (e : Host.reduce IntOp.andi (cmpf .olt (Host.absf v)
      (broadcastInDim s ![] hb (constant Cert.Pre_finite_inputs.S_ .f32 0x7F800000#32))) init hr hu j = 1#1) :
    ∃ x : s.Idx → ℝ, v = fun i => ((x i : ℝ) : EReal) :=
  real_of_all v fun i => abs_lt_top_of_cmp hb v i (Host.reduce_andi_all _ init hr hu j e i)

/-- Under the precondition every input array of the kernel, on every device, is the coercion of
    a real array. -/
theorem real_inputs [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ (x0 x1 : Cert.KernelIdeal.S4x4096x256.Idx → ℝ) (x2 x4 x6 : Cert.KernelIdeal.S256x256.Idx → ℝ)
      (x3 x5 x7 : Cert.KernelIdeal.S256.Idx → ℝ),
      m ((c.tc : Thread Cert.KernelIdeal.nD Cert.KernelIdeal.τ).loc Cert.KernelIdeal.main_arg0) = (fun i => ((x0 i : ℝ) : EReal))
      ∧ m ((c.tc : Thread Cert.KernelIdeal.nD Cert.KernelIdeal.τ).loc Cert.KernelIdeal.main_arg1) = (fun i => ((x1 i : ℝ) : EReal))
      ∧ m ((c.tc : Thread Cert.KernelIdeal.nD Cert.KernelIdeal.τ).loc Cert.KernelIdeal.main_arg2) = (fun i => ((x2 i : ℝ) : EReal))
      ∧ m ((c.tc : Thread Cert.KernelIdeal.nD Cert.KernelIdeal.τ).loc Cert.KernelIdeal.main_arg3) = (fun i => ((x3 i : ℝ) : EReal))
      ∧ m ((c.tc : Thread Cert.KernelIdeal.nD Cert.KernelIdeal.τ).loc Cert.KernelIdeal.main_arg4) = (fun i => ((x4 i : ℝ) : EReal))
      ∧ m ((c.tc : Thread Cert.KernelIdeal.nD Cert.KernelIdeal.τ).loc Cert.KernelIdeal.main_arg5) = (fun i => ((x5 i : ℝ) : EReal))
      ∧ m ((c.tc : Thread Cert.KernelIdeal.nD Cert.KernelIdeal.τ).loc Cert.KernelIdeal.main_arg6) = (fun i => ((x6 i : ℝ) : EReal))
      ∧ m ((c.tc : Thread Cert.KernelIdeal.nD Cert.KernelIdeal.τ).loc Cert.KernelIdeal.main_arg7) = (fun i => ((x7 i : ℝ) : EReal)) := by
  -- the precondition at the one index of its rank-0 result, with the printed function unfolded:
  -- a left-nested conjunction of the eight reductions
  have h0 := congrFun (h c) ValueIdx.ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  -- each reduction being 1 makes its array real
  obtain ⟨x0, hx0⟩ := real_of_reduce _ _ _ _ _ _ e0
  obtain ⟨x1, hx1⟩ := real_of_reduce _ _ _ _ _ _ e1
  obtain ⟨x2, hx2⟩ := real_of_reduce _ _ _ _ _ _ e2
  obtain ⟨x3, hx3⟩ := real_of_reduce _ _ _ _ _ _ e3
  obtain ⟨x4, hx4⟩ := real_of_reduce _ _ _ _ _ _ e4
  obtain ⟨x5, hx5⟩ := real_of_reduce _ _ _ _ _ _ e5
  obtain ⟨x6, hx6⟩ := real_of_reduce _ _ _ _ _ _ e6
  obtain ⟨x7, hx7⟩ := real_of_reduce _ _ _ _ _ _ e7
  exact ⟨x0, x1, x2, x4, x6, x3, x5, x7, hx0, hx1, hx2, hx3, hx4, hx5, hx6, hx7⟩

end Cert.Proof.Finite
-- ==== Proof.Spec.lean ====
import Mathlib

/-!
Single-head attention over the reals, as one function of its arguments.

For a batch `b` and a query row `r` the result at feature `e` is the softmax-weighted average over all
keys `k` of the projected values `v k e`, the weights being the exponentials of the scores
`s k = ∑ e', (q e' / 16) · kp k e'` of the projected and scaled query against the projected keys:

  `attn b r e = (∑ k, exp (s k) · v k e) / (∑ k, exp (s k))`.

A softmax is invariant under a common shift of its scores, so any way of computing it that subtracts a
(running or global) maximum before exponentiating computes this same quotient.
-/

noncomputable section

namespace Attn

open Finset

/-- The average of `v` weighted by the exponentials of the scores `s`. -/
def wavg {ι : Type} [Fintype ι] (s v : ι → ℝ) : ℝ :=
  (∑ k, Real.exp (s k) * v k) / ∑ k, Real.exp (s k)

/-- One row of a linear layer: `(x · Wᵀ + b) e = ∑ d, x d · W e d + b e`. -/
def proj (x : Fin 256 → ℝ) (W : Fin 256 → Fin 256 → ℝ) (b : Fin 256 → ℝ) (e : Fin 256) : ℝ :=
  (∑ d, x d * W e d) + b e

/-- The score of query row `r` against key row `k`: the projected query, scaled by `1/16 = 1/√256`,
    against the projected key. -/
def score (Q K : Fin 4 → Fin 4096 → Fin 256 → ℝ) (Wq Wk : Fin 256 → Fin 256 → ℝ) (bq bk : Fin 256 → ℝ)
    (b : Fin 4) (r k : Fin 4096) : ℝ :=
  ∑ e, (proj (Q b r) Wq bq e * (1 / 16)) * proj (K b k) Wk bk e

/-- Attention: the softmax-weighted average of the projected values. -/
def attn (Q K : Fin 4 → Fin 4096 → Fin 256 → ℝ) (Wq Wk Wv : Fin 256 → Fin 256 → ℝ) (bq bk bv : Fin 256 → ℝ)
    (b : Fin 4) (r : Fin 4096) (e : Fin 256) : ℝ :=
  wavg (fun k => score Q K Wq Wk bq bk b r k) (fun k => proj (K b k) Wv bv e)

variable {ι : Type} [Fintype ι]

/-- Shift invariance: normalising the exponentials of the scores shifted by any `M` and then averaging
    is the weighted average. -/
theorem sum_softmax_mul (s v : ι → ℝ) (M : ℝ) [Nonempty ι] :
    ∑ k, Real.exp (s k - M) / (∑ k', Real.exp (s k' - M)) * v k = wavg s v := by
  have hpos : 0 < ∑ k, Real.exp (s k) := Finset.sum_pos (fun k _ => Real.exp_pos _) Finset.univ_nonempty
  have hM : ∀ k, Real.exp (s k - M) = Real.exp (s k) * Real.exp (-M) := fun k => by
    rw [sub_eq_add_neg, Real.exp_add]
  simp only [hM]
  rw [← Finset.sum_mul]
  have hne : Real.exp (-M) ≠ 0 := (Real.exp_pos _).ne'
  unfold wavg
  rw [Finset.sum_div]
  refine Finset.sum_congr rfl fun k _ => ?_
  field_simp

/-- What a running-maximum accumulation holds after the keys in `S` have been visited, when the running
    maximum stands at `a`: the denominator `l` and the numerator `acc` are the partial sums over `S`,
    both scaled by `exp (-a)`. -/
def Partial (s v : ι → ℝ) (S : Finset ι) (a l acc : ℝ) : Prop :=
  l = Real.exp (-a) * ∑ k ∈ S, Real.exp (s k) ∧ acc = Real.exp (-a) * ∑ k ∈ S, Real.exp (s k) * v k

theorem Partial.empty (s v : ι → ℝ) (a : ℝ) : Partial s v ∅ a 0 0 := by
  constructor <;> simp

/-- One step: visiting a further disjoint set `T` of keys while the maximum moves from `a` to any `a'`
    rescales what was accumulated by `exp (a - a')` and adds the new terms shifted by `a'`. -/
theorem Partial.step [DecidableEq ι] {s v : ι → ℝ} {S T : Finset ι} {a l acc : ℝ} (h : Partial s v S a l acc)
    (hd : Disjoint S T) (a' : ℝ) :
    Partial s v (S ∪ T) a' (Real.exp (a - a') * l + ∑ k ∈ T, Real.exp (s k - a'))
      (Real.exp (a - a') * acc + ∑ k ∈ T, Real.exp (s k - a') * v k) := by
  obtain ⟨hl, hacc⟩ := h
  have hM : ∀ k, Real.exp (s k - a') = Real.exp (-a') * Real.exp (s k) := fun k => by
    rw [sub_eq_add_neg, Real.exp_add, mul_comm]
  have ha : Real.exp (a - a') * Real.exp (-a) = Real.exp (-a') := by
    rw [← Real.exp_add]; congr 1; ring
  constructor
  · rw [Finset.sum_union hd, hl, ← mul_assoc, ha, mul_add, Finset.mul_sum]
    simp only [hM, Finset.mul_sum]
  · rw [Finset.sum_union hd, hacc, ← mul_assoc, ha, mul_add, Finset.mul_sum]
    simp only [hM, mul_assoc, Finset.mul_sum]

/-- Once every key has been visited the quotient of numerator by denominator is the weighted average,
    wherever the maximum stands. -/
theorem Partial.final {s v : ι → ℝ} {a l acc : ℝ} (h : Partial s v Finset.univ a l acc) [Nonempty ι] :
    l ≠ 0 ∧ acc / l = wavg s v := by
  obtain ⟨hl, hacc⟩ := h
  have hpos : 0 < ∑ k, Real.exp (s k) := Finset.sum_pos (fun k _ => Real.exp_pos _) Finset.univ_nonempty
  have he : Real.exp (-a) ≠ 0 := (Real.exp_pos _).ne'
  refine ⟨by rw [hl]; exact mul_ne_zero he hpos.ne', ?_⟩
  rw [hl, hacc]
  unfold wavg
  field_simp

end Attn

end
-- ==== Proof.RefValue.lean ====
import Mathlib
import proofs.«142110_j22110491639926_2_alg».proof.Proof.Gen.ReferenceIdeal.Read
import proofs.«142110_j22110491639926_2_alg».proof.Proof.Spec
import Idealize.ShloMosaic.Lib.ValueIdx
import Idealize.ShloMosaic.Lib.IdealHost
import Idealize.ShloMosaic.PureOps.Ideal.Laws
import Idealize.ShloMosaic.PureOps.Reduce

/-!
The reference program's result, read one element at a time over the extended reals, is attention over
the reals.

At arguments that are all real numbers every intermediate array of the reference holds real numbers:
the three projections x · Wᵀ + b, the scores (∑ e, q e · k e) · (1 / √256), the row maximum M (a
maximum of finitely many reals, at least one of them), the exponentials exp (s k − M), their row sum,
the quotients, and the final contraction against the projected values. The scale 1 / √256 is 1 / 16.
Because a softmax does not change under a common shift of its scores, the value of M does not matter:
the result at (b, r, e) is the average of the projected values weighted by exp (s k).
-/

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## Real numbers inside the extended reals -/

/-- The inclusion of the reals commutes with finite sums. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A maximum, started from -∞, of finitely many reals, at least one of them, is a real. -/
theorem fold_max_real {ι : Type} (s : Finset ι) (hs : s.Nonempty) (f : ι → EReal) (hf : ∀ k, ∃ r : ℝ, f k = r) :
    ∃ M : ℝ, s.fold max ⊥ f = M := by
  obtain ⟨k0, hk0⟩ := hs
  have hbot : s.fold max ⊥ f ≠ ⊥ := by
    obtain ⟨r, hr⟩ := hf k0
    have h1 : f k0 ≤ s.fold max ⊥ f := (Finset.le_fold_max _).mpr (Or.inr ⟨k0, hk0, le_rfl⟩)
    intro h
    rw [h, hr] at h1
    exact absurd h1 (not_le.mpr (EReal.bot_lt_coe r))
  have htop : s.fold max ⊥ f ≠ ⊤ := by
    have h1 : s.fold max ⊥ f < ⊤ := (Finset.fold_max_lt _).mpr ⟨bot_lt_top, fun x _ => by
      obtain ⟨r, hr⟩ := hf x
      rw [hr]; exact EReal.coe_lt_top r⟩
    exact h1.ne
  exact ⟨(s.fold max ⊥ f).toReal, (EReal.coe_toReal htop hbot).symm⟩

/-! ## The literals -/

/-- The pattern 0x43800000 is 256. -/
theorem ofBits_256 : Ideal.ofBits .f32 0x43800000#32 = ((256 : ℝ) : EReal) := by
  simp [Ideal.ofBits, Ideal.ieee, -EReal.coe_mul]; norm_num

/-- The pattern 0xFF800000 is -∞. -/
theorem ofBits_neg_inf : Ideal.ofBits .f32 0xFF800000#32 = ⊥ := by
  simp [Ideal.ofBits, Ideal.ieee]

/-- The square root of 256 is 16. -/
theorem sqrt_256 : Real.sqrt 256 = 16 := by
  rw [show (256 : ℝ) = 16 ^ 2 by norm_num, Real.sqrt_sq (by norm_num)]

/-! ## Indices

An index the generated reading lemmas build coordinate by coordinate is the index with those
coordinates. -/

/-- Two rank-3 indices with the same coordinates are equal. -/
theorem ext3 {n0 n1 n2 : Nat} (i j : (⟨3, ![n0, n1, n2]⟩ : Shape).Idx) (h0 : i 0 = j 0) (h1 : i 1 = j 1) (h2 : i 2 = j 2) :
    i = j := by
  funext a; match a with | ⟨0, _⟩ => exact h0 | ⟨1, _⟩ => exact h1 | ⟨2, _⟩ => exact h2

/-- Two rank-2 indices with the same coordinates are equal. -/
theorem ext2 {n0 n1 : Nat} (i j : (⟨2, ![n0, n1]⟩ : Shape).Idx) (h0 : i 0 = j 0) (h1 : i 1 = j 1) : i = j := by
  funext a; match a with | ⟨0, _⟩ => exact h0 | ⟨1, _⟩ => exact h1

/-- Two rank-1 indices with the same coordinate are equal. -/
theorem ext1 {n0 : Nat} (i j : (⟨1, ![n0]⟩ : Shape).Idx) (h0 : i 0 = j 0) : i = j := by
  funext a; match a with | ⟨0, _⟩ => exact h0

/-! ## The arguments

The arguments are arrays of reals, read inside the extended reals; by coordinates they are the
functions attention over the reals is stated with. -/

/-- An array of reals, read inside the extended reals. -/
abbrev cE {s : Shape} (x : s.Idx → ℝ) : (⟨s, .f32⟩ : BufTy).Contents (Elt Ideal) := fun i => ((x i : ℝ) : EReal)

/-- A rank-3 array by coordinates. -/
abbrev A3 (x : S4x4096x256.Idx → ℝ) : Fin 4 → Fin 4096 → Fin 256 → ℝ := fun b r d => x (ix3 b r d)
/-- A weight matrix by coordinates. -/
abbrev A2 (x : S256x256.Idx → ℝ) : Fin 256 → Fin 256 → ℝ := fun e d => x (ix2 e d)
/-- A bias vector by coordinates. -/
abbrev A1 (x : S256.Idx → ℝ) : Fin 256 → ℝ := fun e => x (ix1 e)

variable (x0 x1 : S4x4096x256.Idx → ℝ) (x2 : S256x256.Idx → ℝ) (x3 : S256.Idx → ℝ) (x4 : S256x256.Idx → ℝ)
  (x5 : S256.Idx → ℝ) (x6 : S256x256.Idx → ℝ) (x7 : S256.Idx → ℝ)

/-! ## The projections -/

/-- A row of a linear layer computed inside the extended reals is the real one. -/
theorem proj_coe (x : Fin 256 → ℝ) (W : Fin 256 → Fin 256 → ℝ) (c : Fin 256 → ℝ) (e : Fin 256) :
    (∑ d : Fin 256, ((x d : ℝ) : EReal) * ((W e d : ℝ) : EReal)) + ((c e : ℝ) : EReal) = ((Attn.proj x W c e : ℝ) : EReal) := by
  unfold Attn.proj
  rw [EReal.coe_add, coe_sum]
  simp only [EReal.coe_mul]

/-- The projected queries. -/
theorem v3_eq (b : Fin 4) (r : Fin 4096) (e : Fin 256) :
    val_main_v3 (F := Ideal) (cE x0) (cE x2) (cE x3) (ix3 b r e) = ((Attn.proj (A3 x0 b r) (A2 x2) (A1 x3) e : ℝ) : EReal) := by
  rw [val_main_v3_apply, val_main_v0_apply, val_main_v2_apply, val_main_v1_apply, ← proj_coe]
  have hl : ∀ k, lidx_main_v0 (ix3 b r e) k = ix3 b r k := fun k => ext3 _ _ rfl rfl rfl
  have hr : ∀ k, ridx_main_v0 (ix3 b r e) k = ix2 e k := fun k => ext2 _ _ rfl rfl
  have hb : idx_main_v1 (idx_main_v2 (ix3 b r e)) = ix1 e := ext1 _ _ rfl
  simp only [hl, hr, hb, Ideal.addf_def]

/-- The projected keys. -/
theorem v7_eq (b : Fin 4) (r : Fin 4096) (e : Fin 256) :
    val_main_v7 (F := Ideal) (cE x1) (cE x4) (cE x5) (ix3 b r e) = ((Attn.proj (A3 x1 b r) (A2 x4) (A1 x5) e : ℝ) : EReal) := by
  rw [val_main_v7_apply, val_main_v4_apply, val_main_v6_apply, val_main_v5_apply, ← proj_coe]
  have hl : ∀ k, lidx_main_v4 (ix3 b r e) k = ix3 b r k := fun k => ext3 _ _ rfl rfl rfl
  have hr : ∀ k, ridx_main_v4 (ix3 b r e) k = ix2 e k := fun k => ext2 _ _ rfl rfl
  have hb : idx_main_v5 (idx_main_v6 (ix3 b r e)) = ix1 e := ext1 _ _ rfl
  simp only [hl, hr, hb, Ideal.addf_def]

/-- The projected values. -/
theorem v11_eq (b : Fin 4) (r : Fin 4096) (e : Fin 256) :
    val_main_v11 (F := Ideal) (cE x1) (cE x6) (cE x7) (ix3 b r e) = ((Attn.proj (A3 x1 b r) (A2 x6) (A1 x7) e : ℝ) : EReal) := by
  rw [val_main_v11_apply, val_main_v8_apply, val_main_v10_apply, val_main_v9_apply, ← proj_coe]
  have hl : ∀ k, lidx_main_v8 (ix3 b r e) k = ix3 b r k := fun k => ext3 _ _ rfl rfl rfl
  have hr : ∀ k, ridx_main_v8 (ix3 b r e) k = ix2 e k := fun k => ext2 _ _ rfl rfl
  have hb : idx_main_v9 (idx_main_v10 (ix3 b r e)) = ix1 e := ext1 _ _ rfl
  simp only [hl, hr, hb, Ideal.addf_def]

/-! ## The scores -/

/-- The scale: one over the square root of 256 is one sixteenth. -/
theorem v15_eq (i : S4x4096x4096.Idx) : val_main_v15 (F := Ideal) i = (((1 : ℝ) / 16 : ℝ) : EReal) := by
  rw [val_main_v15_apply, val_main_v13_apply, val_main_cst_0_apply, val_main_v12_apply, val_main_cst_apply]
  simp only [Ideal.hostDivf_def, Ideal.hostUnary_sqrt_def, Ideal.ofBits_def]
  rw [Ideal.ofBits_one_f32, ofBits_256, Ideal.sqrt_coe, if_neg (by norm_num), sqrt_256,
    Ideal.div_coe (by norm_num), one_mul]

/-- The score of query row r against key row k, as the reals' score. The program scales the
    contraction, the reals' score scales the query: the same number. -/
theorem v16_eq (b : Fin 4) (r k : Fin 4096) :
    val_main_v16 (F := Ideal) (cE x0) (cE x1) (cE x2) (cE x3) (cE x4) (cE x5) (ix3 b r k)
      = ((Attn.score (A3 x0) (A3 x1) (A2 x2) (A2 x4) (A1 x3) (A1 x5) b r k : ℝ) : EReal) := by
  rw [val_main_v16_apply, val_main_v14_apply, v15_eq]
  have hl : ∀ e, lidx_main_v14 (ix3 b r k) e = ix3 b r e := fun e => ext3 _ _ rfl rfl rfl
  have hr : ∀ e, ridx_main_v14 (ix3 b r k) e = ix3 b k e := fun e => ext3 _ _ rfl rfl rfl
  simp only [hl, hr, v3_eq, v7_eq, Ideal.mulf_def, ← EReal.coe_mul, ← coe_sum]
  unfold Attn.score
  rw [Finset.sum_mul]
  refine congrArg _ (Finset.sum_congr rfl fun e _ => ?_)
  ring

/-- Every score is a real. -/
theorem v16_real (i : S4x4096x4096.Idx) :
    ∃ s : ℝ, val_main_v16 (F := Ideal) (cE x0) (cE x1) (cE x2) (cE x3) (cE x4) (cE x5) i = s := by
  obtain ⟨b, r, k, rfl⟩ : ∃ b r k, i = ix3 b r k := ⟨i 0, i 1, i 2, eq_ix3 i⟩
  exact ⟨_, v16_eq x0 x1 x2 x3 x4 x5 b r k⟩

/-! ## The row maximum -/

/-- A maximum over the last axis, started from -∞, of an array of reals is a real at every row. -/
theorem reduce_max_real (y : (⟨S4x4096x4096, .f32⟩ : BufTy).Contents (Elt Ideal)) (hy : ∀ i, ∃ s : ℝ, y i = s)
    (c : (⟨S_, .f32⟩ : BufTy).Contents (Elt Ideal)) (hc : ∀ i, c i = ⊥) (j : S4x4096.Idx) :
    ∃ M : ℝ, Host.reduce (FloatOps.maximumf (F := Ideal) (φ := .f32)) y c reducesTo_S4x4096x4096_S4x4096_d2 h_S_ j = M := by
  rw [Host.reduce_eq_fold_single (FloatOps.maximumf (F := Ideal) (φ := .f32)) y c reducesTo_S4x4096x4096_S4x4096_d2 (by decide) h_S_ j,
    hc]
  exact fold_max_real _ ⟨⟨0, by decide⟩, Finset.mem_univ _⟩ _ (fun k => hy _)

/-- The maximum over the keys of a row's scores, taken again against -∞, is a real. -/
theorem v19_real (j : S4x4096.Idx) :
    ∃ M : ℝ, val_main_v19 (F := Ideal) (cE x0) (cE x1) (cE x2) (cE x3) (cE x4) (cE x5) j = M := by
  obtain ⟨M, hM⟩ := reduce_max_real (val_main_v16 (F := Ideal) (cE x0) (cE x1) (cE x2) (cE x3) (cE x4) (cE x5))
    (v16_real x0 x1 x2 x3 x4 x5) (val_main_cst_1 (F := Ideal)) (fun i => ofBits_neg_inf) j
  refine ⟨M, ?_⟩
  rw [val_main_v19_apply, val_main_v18_apply, val_main_cst_2_apply]
  unfold val_main_v17
  rw [hM]
  simp only [Ideal.maximumf_def, Ideal.ofBits_def]
  rw [ofBits_neg_inf, max_eq_right bot_le]

/-- The row maximum the program subtracts, as a real. -/
def rowMax (b : Fin 4) (r : Fin 4096) : ℝ :=
  (val_main_v19 (F := Ideal) (cE x0) (cE x1) (cE x2) (cE x3) (cE x4) (cE x5) (ix2 b r)).toReal

theorem v19_eq (b : Fin 4) (r : Fin 4096) :
    val_main_v19 (F := Ideal) (cE x0) (cE x1) (cE x2) (cE x3) (cE x4) (cE x5) (ix2 b r)
      = ((rowMax x0 x1 x2 x3 x4 x5 b r : ℝ) : EReal) := by
  obtain ⟨M, hM⟩ := v19_real x0 x1 x2 x3 x4 x5 (ix2 b r)
  unfold rowMax
  rw [hM, EReal.toReal_coe]

/-! ## The exponentials, their sum, and the weights -/

/-- The shifted exponential of a score. -/
theorem v23_eq (b : Fin 4) (r k : Fin 4096) :
    val_main_v23 (F := Ideal) (cE x0) (cE x1) (cE x2) (cE x3) (cE x4) (cE x5) (ix3 b r k)
      = ((Real.exp (Attn.score (A3 x0) (A3 x1) (A2 x2) (A2 x4) (A1 x3) (A1 x5) b r k - rowMax x0 x1 x2 x3 x4 x5 b r) : ℝ) : EReal) := by
  rw [val_main_v23_apply, val_main_v22_apply, val_main_v21_apply, val_main_v20_apply]
  have hj : idx_main_v20 (idx_main_v21 (ix3 b r k)) = ix2 b r := ext2 _ _ rfl rfl
  rw [hj, v16_eq, v19_eq]
  simp only [Ideal.subf_def, Ideal.hostUnary_exp_def]
  rw [← EReal.coe_sub, Ideal.exp_coe]

/-- The row's sum of shifted exponentials. -/
theorem v24_eq (b : Fin 4) (r : Fin 4096) :
    val_main_v24 (F := Ideal) (cE x0) (cE x1) (cE x2) (cE x3) (cE x4) (cE x5) (ix2 b r)
      = ((∑ k : Fin 4096, Real.exp (Attn.score (A3 x0) (A3 x1) (A2 x2) (A2 x4) (A1 x3) (A1 x5) b r k - rowMax x0 x1 x2 x3 x4 x5 b r) : ℝ) : EReal) := by
  rw [val_main_v24_apply, val_main_cst_3_apply]
  have hi : ∀ k, idx_main_v24 (ix2 b r) k = ix3 b r k := fun k => ext3 _ _ rfl rfl rfl
  simp only [hi, v23_eq, Ideal.ofBits_def, Ideal.ofBits_zero_f32, zero_add, ← coe_sum]

/-- The softmax weight of key k for query row r. -/
theorem v27_eq (b : Fin 4) (r k : Fin 4096) :
    val_main_v27 (F := Ideal) (cE x0) (cE x1) (cE x2) (cE x3) (cE x4) (cE x5) (ix3 b r k)
      = ((Real.exp (Attn.score (A3 x0) (A3 x1) (A2 x2) (A2 x4) (A1 x3) (A1 x5) b r k - rowMax x0 x1 x2 x3 x4 x5 b r)
          / ∑ k' : Fin 4096, Real.exp (Attn.score (A3 x0) (A3 x1) (A2 x2) (A2 x4) (A1 x3) (A1 x5) b r k' - rowMax x0 x1 x2 x3 x4 x5 b r) : ℝ) : EReal) := by
  rw [val_main_v27_apply, val_main_v26_apply, val_main_v25_apply]
  have hj : idx_main_v25 (idx_main_v26 (ix3 b r k)) = ix2 b r := ext2 _ _ rfl rfl
  rw [hj, v23_eq, v24_eq]
  simp only [Ideal.hostDivf_def]
  have hpos : (0 : ℝ) < ∑ k' : Fin 4096, Real.exp (Attn.score (A3 x0) (A3 x1) (A2 x2) (A2 x4) (A1 x3) (A1 x5) b r k' - rowMax x0 x1 x2 x3 x4 x5 b r) :=
    Finset.sum_pos (fun k _ => Real.exp_pos _) ⟨⟨0, by decide⟩, Finset.mem_univ _⟩
  rw [Ideal.div_coe hpos.ne', ← EReal.coe_mul, mul_one_div]

/-! ## The result -/

/-- The reference's result at (b, r, e) is attention over the reals. -/
theorem v28_eq (b : Fin 4) (r : Fin 4096) (e : Fin 256) :
    val_main_v28 (F := Ideal) (cE x0) (cE x1) (cE x2) (cE x3) (cE x4) (cE x5) (cE x6) (cE x7) (ix3 b r e)
      = ((Attn.attn (A3 x0) (A3 x1) (A2 x2) (A2 x4) (A2 x6) (A1 x3) (A1 x5) (A1 x7) b r e : ℝ) : EReal) := by
  rw [val_main_v28_apply]
  have hl : ∀ k, lidx_main_v28 (ix3 b r e) k = ix3 b r k := fun k => ext3 _ _ rfl rfl rfl
  have hr : ∀ k, ridx_main_v28 (ix3 b r e) k = ix3 b k e := fun k => ext3 _ _ rfl rfl rfl
  simp only [hl, hr, v27_eq, v11_eq, ← EReal.coe_mul, ← coe_sum]
  haveI : Nonempty (Fin 4096) := ⟨⟨0, by decide⟩⟩
  rw [Attn.sum_softmax_mul]
  rfl

theorem ref_attn (x0 x1 : S4x4096x256.Idx → ℝ) (x2 x4 x6 : S256x256.Idx → ℝ) (x3 x5 x7 : S256.Idx → ℝ) :
    Cert.ReferenceIdeal.Read.val_main_v28 (F := Ideal) (fun i => ((x0 i : ℝ) : EReal)) (fun i => ((x1 i : ℝ) : EReal))
        (fun i => ((x2 i : ℝ) : EReal)) (fun i => ((x3 i : ℝ) : EReal)) (fun i => ((x4 i : ℝ) : EReal))
        (fun i => ((x5 i : ℝ) : EReal)) (fun i => ((x6 i : ℝ) : EReal)) (fun i => ((x7 i : ℝ) : EReal))
      = fun i => ((Attn.attn (fun b r d => x0 (ValueIdx.ix3 b r d)) (fun b r d => x1 (ValueIdx.ix3 b r d))
          (fun e d => x2 (ValueIdx.ix2 e d)) (fun e d => x4 (ValueIdx.ix2 e d)) (fun e d => x6 (ValueIdx.ix2 e d))
          (fun e => x3 (ValueIdx.ix1 e)) (fun e => x5 (ValueIdx.ix1 e)) (fun e => x7 (ValueIdx.ix1 e)) (i 0) (i 1) (i 2) : ℝ) : EReal) := by
  funext i
  obtain ⟨b, r, e, rfl⟩ : ∃ b r e, i = ix3 b r e := ⟨i 0, i 1, i 2, eq_ix3 i⟩
  exact v28_eq x0 x1 x2 x3 x4 x5 x6 x7 b r e

end Cert.ReferenceIdeal.RefValue

end
-- ==== Proof.Tiles.lean ====
import Mathlib

/-!
The 4096 keys cut into four consecutive tiles of 1024: key `1024 · j + k` is key `k` of tile `j`; the keys
before tile `n` are those below `1024 · n`. A sum over a tile is the sum over its 1024 local keys, the tiles
are disjoint from what precedes them, and four tiles exhaust the keys.
-/

namespace Attn

open Finset

/-- Key `k` of tile `j`, among all keys. -/
def keyOf (j : Fin 4) (k : Fin 1024) : Fin 4096 := ⟨1024 * j.val + k.val, by have := j.isLt; have := k.isLt; omega⟩

/-- The keys of tile `j`. -/
def tile (j : Fin 4) : Finset (Fin 4096) := Finset.univ.filter fun g => g.val / 1024 = j.val

/-- The keys of the tiles before tile `n`. -/
def seen (n : ℕ) : Finset (Fin 4096) := Finset.univ.filter fun g => g.val < 1024 * n

theorem sum_tile (j : Fin 4) (f : Fin 4096 → ℝ) : ∑ g ∈ tile j, f g = ∑ k : Fin 1024, f (keyOf j k) := by
  symm
  refine Finset.sum_bij (fun k _ => keyOf j k) ?_ ?_ ?_ ?_
  · intro k _
    simp only [tile, Finset.mem_filter, Finset.mem_univ, true_and, keyOf]
    have := k.isLt; omega
  · intro k₁ _ k₂ _ h
    have h' : 1024 * j.val + k₁.val = 1024 * j.val + k₂.val := congrArg Fin.val h
    exact Fin.ext (by omega)
  · intro g hg
    simp only [tile, Finset.mem_filter, Finset.mem_univ, true_and] at hg
    have hlt := g.isLt
    refine ⟨⟨g.val - 1024 * j.val, by omega⟩, Finset.mem_univ _, ?_⟩
    apply Fin.ext
    show 1024 * j.val + (g.val - 1024 * j.val) = g.val
    omega
  · intro k _; rfl

theorem seen_zero : seen 0 = ∅ := by
  ext g; simp [seen]

theorem seen_succ (j : Fin 4) : seen (j.val + 1) = seen j.val ∪ tile j := by
  ext g
  simp only [seen, tile, Finset.mem_union, Finset.mem_filter, Finset.mem_univ, true_and]
  omega

theorem disjoint_seen_tile (j : Fin 4) : Disjoint (seen j.val) (tile j) := by
  rw [Finset.disjoint_left]
  intro g hs ht
  simp only [seen, tile, Finset.mem_filter, Finset.mem_univ, true_and] at hs ht
  omega

theorem seen_four : seen 4 = Finset.univ := by
  ext g
  simp only [seen, Finset.mem_filter, Finset.mem_univ, true_and, iff_true]
  have := g.isLt; omega

end Attn
-- ==== Proof.Online.lean ====
import proofs.«142110_j22110491639926_2_alg».proof.Proof.Spec
import proofs.«142110_j22110491639926_2_alg».proof.Proof.Tiles

/-!
The running-maximum accumulation over the four key tiles: what holds before tile 0, what one tile's update
preserves, and what holds after tile 3.
-/

namespace Attn

open Finset

/-- Before the first tile nothing has been visited. -/
theorem Partial.start (s v : Fin 4096 → ℝ) (a : ℝ) : Partial s v (seen 0) a 0 0 := by
  rw [seen_zero]; exact Partial.empty s v a

/-- Tile `j`'s update, the maximum moving from `a` to any `a'`: the sums over the tile are sums over its 1024
    local keys. -/
theorem Partial.tile {s v : Fin 4096 → ℝ} (j : Fin 4) {a l acc : ℝ} (h : Partial s v (seen j.val) a l acc) (a' : ℝ) :
    Partial s v (seen (j.val + 1)) a'
      (Real.exp (a - a') * l + ∑ k : Fin 1024, Real.exp (s (keyOf j k) - a'))
      (Real.exp (a - a') * acc + ∑ k : Fin 1024, Real.exp (s (keyOf j k) - a') * v (keyOf j k)) := by
  rw [seen_succ, ← sum_tile j (fun g => Real.exp (s g - a')), ← sum_tile j (fun g => Real.exp (s g - a') * v g)]
  exact h.step (disjoint_seen_tile j) a'

/-- After the fourth tile the quotient is the weighted average over all keys. -/
theorem Partial.done {s v : Fin 4096 → ℝ} {a l acc : ℝ} (h : Partial s v (seen 4) a l acc) :
    l ≠ 0 ∧ acc / l = wavg s v := by
  rw [seen_four] at h
  haveI : Nonempty (Fin 4096) := ⟨0⟩
  exact h.final

end Attn
-- ==== Proof.TileDefs.lean ====
import proofs.«142110_j22110491639926_2_alg».proof.Proof.Gen.KernelIdeal.Skeleton

/-!
One key tile's update of the fused attention kernel's carried buffers, as pure functions of the blocks it loads
and of what the tile before left: with `q` the scaled query projection, `s = q · kᵀ` for the tile's projected keys
`k = x · Wkᵀ + bk` and `v = x · Wvᵀ + bv` its projected values,

  `m' = max m (rowmax s)`,  `l' = exp (m − m') · l + rowsum (exp (s − m'))`,
  `acc' = exp (m − m') · acc + exp (s − m') · v`.

A query tile's first key tile starts from `q = (x · Wqᵀ + bq) / 16`, `m` a large negative constant, `l = 0`,
`acc = 0`; its last one writes `acc' / l'`.
-/

noncomputable section

namespace Cert.KernelIdeal.Tile

open Cert.KernelIdeal Cert.KernelIdeal.Gen Idealize.ShloMosaic

variable {F : FTy → Type} [FloatOps F]

/-- The scaled query projection of a query tile. -/
def initQ (x0 : Vec F S1x2048x256 .f32) (x2 : Vec F S256x256 .f32) (x3 : Vec F S1x256 .f32) : Vec F S2048x256 .f32 :=
  k0_pay5 x0 x2 x3

/-- The running maximum after a key tile. -/
def stepM (x1 : Vec F S1x1024x256 .f32) (x4 : Vec F S256x256 .f32) (x5 : Vec F S1x256 .f32)
    (q : Vec F S2048x256 .f32) (mx : Vec F S2048x1 .f32) : Vec F S2048x1 .f32 :=
  k0_pay3 (k0_pay12 x1 x4 x5 q mx)

/-- The running denominator after a key tile. -/
def stepL (x1 : Vec F S1x1024x256 .f32) (x4 : Vec F S256x256 .f32) (x5 : Vec F S1x256 .f32)
    (q : Vec F S2048x256 .f32) (mx l : Vec F S2048x1 .f32) : Vec F S2048x1 .f32 :=
  k0_pay1 (k0_pay14 x1 x4 x5 q mx) (k0_pay15 x1 x4 x5 q mx l)

/-- The running numerator after a key tile. -/
def stepAcc (x1 : Vec F S1x1024x256 .f32) (x4 : Vec F S256x256 .f32) (x5 : Vec F S1x256 .f32)
    (x6 : Vec F S256x256 .f32) (x7 : Vec F S1x256 .f32)
    (q : Vec F S2048x256 .f32) (mx : Vec F S2048x1 .f32) (acc : Vec F S2048x256 .f32) : Vec F S2048x256 .f32 :=
  k0_pay2 (k0_pay10 x1 x6 x7) (k0_pay13 x1 x4 x5 q mx) (k0_pay14 x1 x4 x5 q mx) acc

/-- The output block a query tile's last key tile writes: numerator over denominator. -/
def outBlk (acc : Vec F S2048x256 .f32) (l : Vec F S2048x1 .f32) : Vec F S1x2048x256 .f32 :=
  k0_pay4 acc l

end Cert.KernelIdeal.Tile

end
-- ==== Proof.Pieces.lean ====
import proofs.«142110_j22110491639926_2_alg».proof.Proof.Gen.KernelIdeal.Frame
import proofs.«142110_j22110491639926_2_alg».proof.Proof.TileDefs
import Idealize.ShloMosaic.Lib.Pipeline.Value
import Idealize.ShloMosaic.Lib.Tactic

/-!
What each grid point leaves in the four carried buffers and in the output block, in terms of one key tile's
update (`Tile.stepM`, `Tile.stepL`, `Tile.stepAcc`): a query tile's first key tile starts the update from the
scaled query projection, the constant maximum and zeros; every later one continues from what the point before
left; the last one also writes numerator over denominator.
-/

set_option maxRecDepth 16384

noncomputable section

namespace Cert.KernelIdeal.Tile

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle key tile leaves the new running maximum. -/
theorem s1_B (c : Dev nD) (i : grid0.Coords) (arg3 : Memref sig .tc .vmem S1x2048x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x2048x256 .f32) (harg11 : arg11.IsWhole) (arg12 : Memref sig .tc .vmem S2048x256 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x256 .f32) (harg15 : arg15.IsWhole) (hc0 : ¬cond0_0 i) (hc1 : ¬cond0_1 i) (x0 : Vec F S1x2048x256 .f32) (x1 : Vec F S1x1024x256 .f32) (x2 : Vec F S256x256 .f32) (x3 : Vec F S1x256 .f32) (x4 : Vec F S256x256 .f32) (x5 : Vec F S1x256 .f32) (x6 : Vec F S256x256 .f32) (x7 : Vec F S1x256 .f32) (xs0 : Vec F S2048x256 .f32) (xs1 : Vec F S2048x1 .f32) (xs2 : Vec F S2048x1 .f32) (xs3 : Vec F S2048x256 .f32) :
    sout0_B_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 = stepM x1 x4 x5 xs0 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3)]
  unfold kernelRun0_B
  dsimp only
  sl_unfold_words
  rw [View.canon_unit_zero hz2]
  unfold stepM
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x2048x256) hz3, View.ld_unit_zero (S := S1x1024x256) hz3, View.ld_unit_zero (S := S256x256) hz2, View.ld_unit_zero (S := S1x256) hz2, View.ld_unit_zero (S := S2048x256) hz2, View.ld_unit_zero (S := S2048x1) hz2, View.readCov_unit_zero (S := S2048x256) arg12.view hz2, View.readCov_unit_zero (S := S2048x1) arg13.view hz2, View.readCov_unit_zero (S := S2048x1) arg14.view hz2, View.readCov_unit_zero (S := S2048x256) arg15.view hz2]

/-- A middle key tile leaves the new running denominator. -/
theorem s2_B (c : Dev nD) (i : grid0.Coords) (arg3 : Memref sig .tc .vmem S1x2048x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x2048x256 .f32) (harg11 : arg11.IsWhole) (arg12 : Memref sig .tc .vmem S2048x256 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x256 .f32) (harg15 : arg15.IsWhole) (hc0 : ¬cond0_0 i) (hc1 : ¬cond0_1 i) (x0 : Vec F S1x2048x256 .f32) (x1 : Vec F S1x1024x256 .f32) (x2 : Vec F S256x256 .f32) (x3 : Vec F S1x256 .f32) (x4 : Vec F S256x256 .f32) (x5 : Vec F S1x256 .f32) (x6 : Vec F S256x256 .f32) (x7 : Vec F S1x256 .f32) (xs0 : Vec F S2048x256 .f32) (xs1 : Vec F S2048x1 .f32) (xs2 : Vec F S2048x1 .f32) (xs3 : Vec F S2048x256 .f32) :
    sout0_B_2 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 = stepL x1 x4 x5 xs0 xs1 xs2 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3)]
  unfold kernelRun0_B
  dsimp only
  sl_unfold_words
  rw [View.canon_unit_zero hz2]
  unfold stepL
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x2048x256) hz3, View.ld_unit_zero (S := S1x1024x256) hz3, View.ld_unit_zero (S := S256x256) hz2, View.ld_unit_zero (S := S1x256) hz2, View.ld_unit_zero (S := S2048x256) hz2, View.ld_unit_zero (S := S2048x1) hz2, View.readCov_unit_zero (S := S2048x256) arg12.view hz2, View.readCov_unit_zero (S := S2048x1) arg13.view hz2, View.readCov_unit_zero (S := S2048x1) arg14.view hz2, View.readCov_unit_zero (S := S2048x256) arg15.view hz2]

/-- A middle key tile leaves the new running numerator. -/
theorem s3_B (c : Dev nD) (i : grid0.Coords) (arg3 : Memref sig .tc .vmem S1x2048x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x2048x256 .f32) (harg11 : arg11.IsWhole) (arg12 : Memref sig .tc .vmem S2048x256 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x256 .f32) (harg15 : arg15.IsWhole) (hc0 : ¬cond0_0 i) (hc1 : ¬cond0_1 i) (x0 : Vec F S1x2048x256 .f32) (x1 : Vec F S1x1024x256 .f32) (x2 : Vec F S256x256 .f32) (x3 : Vec F S1x256 .f32) (x4 : Vec F S256x256 .f32) (x5 : Vec F S1x256 .f32) (x6 : Vec F S256x256 .f32) (x7 : Vec F S1x256 .f32) (xs0 : Vec F S2048x256 .f32) (xs1 : Vec F S2048x1 .f32) (xs2 : Vec F S2048x1 .f32) (xs3 : Vec F S2048x256 .f32) :
    sout0_B_3 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 = stepAcc x1 x4 x5 x6 x7 xs0 xs1 xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3)]
  unfold kernelRun0_B
  dsimp only
  sl_unfold_words
  rw [View.canon_unit_zero hz2]
  unfold stepAcc
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x2048x256) hz3, View.ld_unit_zero (S := S1x1024x256) hz3, View.ld_unit_zero (S := S256x256) hz2, View.ld_unit_zero (S := S1x256) hz2, View.ld_unit_zero (S := S2048x256) hz2, View.ld_unit_zero (S := S2048x1) hz2, View.readCov_unit_zero (S := S2048x256) arg12.view hz2, View.readCov_unit_zero (S := S2048x1) arg13.view hz2, View.readCov_unit_zero (S := S2048x1) arg14.view hz2, View.readCov_unit_zero (S := S2048x256) arg15.view hz2]

/-- The last key tile leaves the new running maximum. -/
theorem s1_C (c : Dev nD) (i : grid0.Coords) (arg3 : Memref sig .tc .vmem S1x2048x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x2048x256 .f32) (harg11 : arg11.IsWhole) (arg12 : Memref sig .tc .vmem S2048x256 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x256 .f32) (harg15 : arg15.IsWhole) (hc0 : ¬cond0_0 i) (hc1 : cond0_1 i) (x0 : Vec F S1x2048x256 .f32) (x1 : Vec F S1x1024x256 .f32) (x2 : Vec F S256x256 .f32) (x3 : Vec F S1x256 .f32) (x4 : Vec F S256x256 .f32) (x5 : Vec F S1x256 .f32) (x6 : Vec F S256x256 .f32) (x7 : Vec F S1x256 .f32) (xs0 : Vec F S2048x256 .f32) (xs1 : Vec F S2048x1 .f32) (xs2 : Vec F S2048x1 .f32) (xs3 : Vec F S2048x256 .f32) :
    sout0_C_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 = stepM x1 x4 x5 xs0 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3)]
  unfold kernelRun0_C
  dsimp only
  sl_unfold_words
  rw [View.canon_unit_zero hz2]
  unfold stepM
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x2048x256) hz3, View.ld_unit_zero (S := S1x1024x256) hz3, View.ld_unit_zero (S := S256x256) hz2, View.ld_unit_zero (S := S1x256) hz2, View.ld_unit_zero (S := S2048x256) hz2, View.ld_unit_zero (S := S2048x1) hz2, View.readCov_unit_zero (S := S2048x256) arg12.view hz2, View.readCov_unit_zero (S := S2048x1) arg13.view hz2, View.readCov_unit_zero (S := S2048x1) arg14.view hz2, View.readCov_unit_zero (S := S2048x256) arg15.view hz2]

/-- The last key tile leaves the new running denominator. -/
theorem s2_C (c : Dev nD) (i : grid0.Coords) (arg3 : Memref sig .tc .vmem S1x2048x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x2048x256 .f32) (harg11 : arg11.IsWhole) (arg12 : Memref sig .tc .vmem S2048x256 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x256 .f32) (harg15 : arg15.IsWhole) (hc0 : ¬cond0_0 i) (hc1 : cond0_1 i) (x0 : Vec F S1x2048x256 .f32) (x1 : Vec F S1x1024x256 .f32) (x2 : Vec F S256x256 .f32) (x3 : Vec F S1x256 .f32) (x4 : Vec F S256x256 .f32) (x5 : Vec F S1x256 .f32) (x6 : Vec F S256x256 .f32) (x7 : Vec F S1x256 .f32) (xs0 : Vec F S2048x256 .f32) (xs1 : Vec F S2048x1 .f32) (xs2 : Vec F S2048x1 .f32) (xs3 : Vec F S2048x256 .f32) :
    sout0_C_2 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 = stepL x1 x4 x5 xs0 xs1 xs2 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3)]
  unfold kernelRun0_C
  dsimp only
  sl_unfold_words
  rw [View.canon_unit_zero hz2]
  unfold stepL
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x2048x256) hz3, View.ld_unit_zero (S := S1x1024x256) hz3, View.ld_unit_zero (S := S256x256) hz2, View.ld_unit_zero (S := S1x256) hz2, View.ld_unit_zero (S := S2048x256) hz2, View.ld_unit_zero (S := S2048x1) hz2, View.readCov_unit_zero (S := S2048x256) arg12.view hz2, View.readCov_unit_zero (S := S2048x1) arg13.view hz2, View.readCov_unit_zero (S := S2048x1) arg14.view hz2, View.readCov_unit_zero (S := S2048x256) arg15.view hz2]

/-- The last key tile leaves the new running numerator. -/
theorem s3_C (c : Dev nD) (i : grid0.Coords) (arg3 : Memref sig .tc .vmem S1x2048x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x2048x256 .f32) (harg11 : arg11.IsWhole) (arg12 : Memref sig .tc .vmem S2048x256 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x256 .f32) (harg15 : arg15.IsWhole) (hc0 : ¬cond0_0 i) (hc1 : cond0_1 i) (x0 : Vec F S1x2048x256 .f32) (x1 : Vec F S1x1024x256 .f32) (x2 : Vec F S256x256 .f32) (x3 : Vec F S1x256 .f32) (x4 : Vec F S256x256 .f32) (x5 : Vec F S1x256 .f32) (x6 : Vec F S256x256 .f32) (x7 : Vec F S1x256 .f32) (xs0 : Vec F S2048x256 .f32) (xs1 : Vec F S2048x1 .f32) (xs2 : Vec F S2048x1 .f32) (xs3 : Vec F S2048x256 .f32) :
    sout0_C_3 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 = stepAcc x1 x4 x5 x6 x7 xs0 xs1 xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3)]
  unfold kernelRun0_C
  dsimp only
  sl_unfold_words
  rw [View.canon_unit_zero hz2]
  unfold stepAcc
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x2048x256) hz3, View.ld_unit_zero (S := S1x1024x256) hz3, View.ld_unit_zero (S := S256x256) hz2, View.ld_unit_zero (S := S1x256) hz2, View.ld_unit_zero (S := S2048x256) hz2, View.ld_unit_zero (S := S2048x1) hz2, View.readCov_unit_zero (S := S2048x256) arg12.view hz2, View.readCov_unit_zero (S := S2048x1) arg13.view hz2, View.readCov_unit_zero (S := S2048x1) arg14.view hz2, View.readCov_unit_zero (S := S2048x256) arg15.view hz2]

/-- The last key tile writes the new numerator over the new denominator. -/
theorem out_C (c : Dev nD) (i : grid0.Coords) (arg3 : Memref sig .tc .vmem S1x2048x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x2048x256 .f32) (harg11 : arg11.IsWhole) (arg12 : Memref sig .tc .vmem S2048x256 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x256 .f32) (harg15 : arg15.IsWhole) (hc0 : ¬cond0_0 i) (hc1 : cond0_1 i) (x0 : Vec F S1x2048x256 .f32) (x1 : Vec F S1x1024x256 .f32) (x2 : Vec F S256x256 .f32) (x3 : Vec F S1x256 .f32) (x4 : Vec F S256x256 .f32) (x5 : Vec F S1x256 .f32) (x6 : Vec F S256x256 .f32) (x7 : Vec F S1x256 .f32) (xs0 : Vec F S2048x256 .f32) (xs1 : Vec F S2048x1 .f32) (xs2 : Vec F S2048x1 .f32) (xs3 : Vec F S2048x256 .f32) :
    out0_C_8 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3 = outBlk (stepAcc x1 x4 x5 x6 x7 xs0 xs1 xs3) (stepL x1 x4 x5 xs0 xs1 xs2) := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 xs3)]
  unfold kernelRun0_C
  dsimp only
  sl_unfold_words
  rw [View.canon_unit_zero hz3]
  unfold outBlk stepAcc stepL
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x2048x256) hz3, View.ld_unit_zero (S := S1x1024x256) hz3, View.ld_unit_zero (S := S256x256) hz2, View.ld_unit_zero (S := S1x256) hz2, View.ld_unit_zero (S := S2048x256) hz2, View.ld_unit_zero (S := S2048x1) hz2, View.readCov_unit_zero (S := S2048x256) arg12.view hz2, View.readCov_unit_zero (S := S2048x1) arg13.view hz2, View.readCov_unit_zero (S := S2048x1) arg14.view hz2, View.readCov_unit_zero (S := S2048x256) arg15.view hz2]

/-- The first key tile leaves the scaled query projection. -/
theorem s0_A (c : Dev nD) (i : grid0.Coords) (arg3 : Memref sig .tc .vmem S1x2048x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x2048x256 .f32) (harg11 : arg11.IsWhole) (arg12 : Memref sig .tc .vmem S2048x256 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x256 .f32) (harg15 : arg15.IsWhole) (hc0 : cond0_0 i) (hc1 : ¬cond0_1 i) (x0 : Vec F S1x2048x256 .f32) (x1 : Vec F S1x1024x256 .f32) (x2 : Vec F S256x256 .f32) (x3 : Vec F S1x256 .f32) (x4 : Vec F S256x256 .f32) (x5 : Vec F S1x256 .f32) (x6 : Vec F S256x256 .f32) (x7 : Vec F S1x256 .f32) :
    sout0_A_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = initQ x0 x2 x3 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_unit_zero hz2]
  unfold initQ
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x2048x256) hz3, View.ld_unit_zero (S := S1x1024x256) hz3, View.ld_unit_zero (S := S256x256) hz2, View.ld_unit_zero (S := S1x256) hz2, View.ld_unit_zero (S := S2048x256) hz2, View.ld_unit_zero (S := S2048x1) hz2, View.readCov_unit_zero (S := S2048x256) arg12.view hz2, View.readCov_unit_zero (S := S2048x1) arg13.view hz2, View.readCov_unit_zero (S := S2048x1) arg14.view hz2, View.readCov_unit_zero (S := S2048x256) arg15.view hz2]

/-- The first key tile leaves the running maximum, started from the constant. -/
theorem s1_A (c : Dev nD) (i : grid0.Coords) (arg3 : Memref sig .tc .vmem S1x2048x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x2048x256 .f32) (harg11 : arg11.IsWhole) (arg12 : Memref sig .tc .vmem S2048x256 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x256 .f32) (harg15 : arg15.IsWhole) (hc0 : cond0_0 i) (hc1 : ¬cond0_1 i) (x0 : Vec F S1x2048x256 .f32) (x1 : Vec F S1x1024x256 .f32) (x2 : Vec F S256x256 .f32) (x3 : Vec F S1x256 .f32) (x4 : Vec F S256x256 .f32) (x5 : Vec F S1x256 .f32) (x6 : Vec F S256x256 .f32) (x7 : Vec F S1x256 .f32) :
    sout0_A_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = stepM x1 x4 x5 (initQ x0 x2 x3) k0_pay6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_cons_unit_zero (S := S2048x1) hz2]
  unfold stepM initQ
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x2048x256) hz3, View.ld_unit_zero (S := S1x1024x256) hz3, View.ld_unit_zero (S := S256x256) hz2, View.ld_unit_zero (S := S1x256) hz2, View.ld_unit_zero (S := S2048x256) hz2, View.ld_unit_zero (S := S2048x1) hz2, View.readCov_unit_zero (S := S2048x256) arg12.view hz2, View.readCov_unit_zero (S := S2048x1) arg13.view hz2, View.readCov_unit_zero (S := S2048x1) arg14.view hz2, View.readCov_unit_zero (S := S2048x256) arg15.view hz2]

/-- The first key tile leaves the running denominator, started from zero. -/
theorem s2_A (c : Dev nD) (i : grid0.Coords) (arg3 : Memref sig .tc .vmem S1x2048x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x2048x256 .f32) (harg11 : arg11.IsWhole) (arg12 : Memref sig .tc .vmem S2048x256 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x256 .f32) (harg15 : arg15.IsWhole) (hc0 : cond0_0 i) (hc1 : ¬cond0_1 i) (x0 : Vec F S1x2048x256 .f32) (x1 : Vec F S1x1024x256 .f32) (x2 : Vec F S256x256 .f32) (x3 : Vec F S1x256 .f32) (x4 : Vec F S256x256 .f32) (x5 : Vec F S1x256 .f32) (x6 : Vec F S256x256 .f32) (x7 : Vec F S1x256 .f32) :
    sout0_A_2 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = stepL x1 x4 x5 (initQ x0 x2 x3) k0_pay6 k0_pay7 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_cons_unit_zero (S := S2048x1) hz2]
  unfold stepL initQ
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x2048x256) hz3, View.ld_unit_zero (S := S1x1024x256) hz3, View.ld_unit_zero (S := S256x256) hz2, View.ld_unit_zero (S := S1x256) hz2, View.ld_unit_zero (S := S2048x256) hz2, View.ld_unit_zero (S := S2048x1) hz2, View.readCov_unit_zero (S := S2048x256) arg12.view hz2, View.readCov_unit_zero (S := S2048x1) arg13.view hz2, View.readCov_unit_zero (S := S2048x1) arg14.view hz2, View.readCov_unit_zero (S := S2048x256) arg15.view hz2]

/-- The first key tile leaves the running numerator, started from zero. -/
theorem s3_A (c : Dev nD) (i : grid0.Coords) (arg3 : Memref sig .tc .vmem S1x2048x256 .f32) (harg3 : arg3.IsWhole) (arg4 : Memref sig .tc .vmem S1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S1x2048x256 .f32) (harg11 : arg11.IsWhole) (arg12 : Memref sig .tc .vmem S2048x256 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x256 .f32) (harg15 : arg15.IsWhole) (hc0 : cond0_0 i) (hc1 : ¬cond0_1 i) (x0 : Vec F S1x2048x256 .f32) (x1 : Vec F S1x1024x256 .f32) (x2 : Vec F S256x256 .f32) (x3 : Vec F S1x256 .f32) (x4 : Vec F S256x256 .f32) (x5 : Vec F S1x256 .f32) (x6 : Vec F S256x256 .f32) (x7 : Vec F S1x256 .f32) :
    sout0_A_3 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = stepAcc x1 x4 x5 x6 x7 (initQ x0 x2 x3) k0_pay6 k0_pay8 := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  rw [View.canon_cons_unit_zero (S := S2048x256) hz2]
  unfold stepAcc initQ
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x2048x256) hz3, View.ld_unit_zero (S := S1x1024x256) hz3, View.ld_unit_zero (S := S256x256) hz2, View.ld_unit_zero (S := S1x256) hz2, View.ld_unit_zero (S := S2048x256) hz2, View.ld_unit_zero (S := S2048x1) hz2, View.readCov_unit_zero (S := S2048x256) arg12.view hz2, View.readCov_unit_zero (S := S2048x1) arg13.view hz2, View.readCov_unit_zero (S := S2048x1) arg14.view hz2, View.readCov_unit_zero (S := S2048x256) arg15.view hz2]

variable (m : (ℓ : Loc nD τ sig) → Buf (Elt F) ℓ)

/-- After a query tile's first key tile: the update started from the scaled query projection, the constant
    maximum and zeros (the output block is not written there). -/
theorem outs_first (c : Dev nD) (t : Fin cfg0.N) (h0 : t.val % 4 = 0) (h1 : ¬t.val % 4 = 3) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), (initQ (iblk m c 0 t) (iblk m c 2 t) (iblk m c 3 t)), stepM (iblk m c 1 t) (iblk m c 4 t) (iblk m c 5 t) (initQ (iblk m c 0 t) (iblk m c 2 t) (iblk m c 3 t)) k0_pay6, stepL (iblk m c 1 t) (iblk m c 4 t) (iblk m c 5 t) (initQ (iblk m c 0 t) (iblk m c 2 t) (iblk m c 3 t)) k0_pay6 k0_pay7, stepAcc (iblk m c 1 t) (iblk m c 4 t) (iblk m c 5 t) (iblk m c 6 t) (iblk m c 7 t) (initQ (iblk m c 0 t) (iblk m c 2 t) (iblk m c 3 t)) k0_pay6 k0_pay8) := by
  refine (outsAt0_A m c t h0 h1).trans ?_
  rw [s0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), s1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), s2_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), s3_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)]

/-- After a middle key tile: the update of what the point before left (the output block is not written there). -/
theorem outs_middle (c : Dev nD) (t : Fin cfg0.N) (h0 : ¬t.val % 4 = 0) (h1 : ¬t.val % 4 = 3) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, (outsAt0 m c (t.val - 1) (Nat.lt_of_le_of_lt (Nat.sub_le _ _) t.isLt)).2.1, stepM (iblk m c 1 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1, stepL (iblk m c 1 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, stepAcc (iblk m c 1 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2) := by
  refine (outsAt0_B m c t h0 h1).trans ?_
  rw [s1_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, s2_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, s3_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  rfl

/-- After a query tile's last key tile: the same update, and the output block is the new numerator over the new
    denominator. -/
theorem outs_last (c : Dev nD) (t : Fin cfg0.N) (h0 : ¬t.val % 4 = 0) (h1 : t.val % 4 = 3) :
    outsAt0 m c t.val t.isLt = (outBlk (stepAcc (iblk m c 1 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2) (stepL (iblk m c 1 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1), (outsAt0 m c (t.val - 1) (Nat.lt_of_le_of_lt (Nat.sub_le _ _) t.isLt)).2.1, stepM (iblk m c 1 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1, stepL (iblk m c 1 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, stepAcc (iblk m c 1 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2) := by
  refine (outsAt0_C m c t h0 h1).trans ?_
  rw [out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, s1_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, s2_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, s3_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  rfl

end Cert.KernelIdeal.Tile

end
-- ==== Proof.Mat.lean ====
import proofs.«142110_j22110491639926_2_alg».proof.Proof.Gen.KernelIdeal
import Idealize.ShloMosaic.Lib.ValueIdx
import Idealize.ShloMosaic.Lib.Pipeline.Value
import Idealize.ShloMosaic.PureOps.Ideal.Laws

/-!
The kernel's four matrix products, read entry by entry over the extended reals: each, into a zero accumulator,
is the plain sum over its one contracted axis.
-/

noncomputable section

namespace Cert.KernelIdeal.Mat

open Cert.KernelIdeal Cert.KernelIdeal.Gen Idealize.ShloMosaic Idealize.ShloMosaic.ValueIdx

/-- The row coordinate of the left operand's index is the result's row coordinate. -/
theorem proj2048_l (i : S2048x256.Idx) (c : dot_S2048x256_S256x256_S2048x256_1_0_0_1_n_n.contr.Idx) :
    (dot_S2048x256_S256x256_S2048x256_1_0_0_1_n_n.lhsIdx i c 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl

/-- The free coordinate of the right operand's index is the result's column coordinate. -/
theorem proj2048_r (i : S2048x256.Idx) (c : dot_S2048x256_S256x256_S2048x256_1_0_0_1_n_n.contr.Idx) :
    (dot_S2048x256_S256x256_S2048x256_1_0_0_1_n_n.rhsIdx i c 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- A row block times a square matrix: entry `(p, e)` is `∑ k, lhs (p, k) · rhs (k, e)`. -/
theorem proj2048_apply (prec : Option ContractPrecision) (lhs : FVec Ideal S2048x256 .f32) (rhs : FVec Ideal S256x256 .f32) (p : Fin 2048) (q : Fin 256) :
    matmul dot_S2048x256_S256x256_S2048x256_1_0_0_1_n_n prec lhs rhs (constant S2048x256 .f32 0x00000000#32) (ix2 p q)
      = ∑ k : Fin 256, lhs (ix2 p k) * rhs (ix2 k q) := by
  show FloatOps.matmul dot_S2048x256_S256x256_S2048x256_1_0_0_1_n_n prec lhs rhs (constant S2048x256 .f32 0x00000000#32) (ix2 p q) = _
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact proj2048_l _ _
    | ⟨1, _⟩ => exact (dot_S2048x256_S256x256_S2048x256_1_0_0_1_n_n.lhsIdx_val_of_single rfl _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (dot_S2048x256_S256x256_S2048x256_1_0_0_1_n_n.rhsIdx_val_of_single rfl _ _).trans hk
    | ⟨1, _⟩ => exact proj2048_r _ _)
  rw [el, er]

/-- The row coordinate of the left operand's index is the result's row coordinate. -/
theorem proj1024_l (i : S1024x256.Idx) (c : dot_S1024x256_S256x256_S1024x256_1_0_0_1_n_n.contr.Idx) :
    (dot_S1024x256_S256x256_S1024x256_1_0_0_1_n_n.lhsIdx i c 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl

/-- The free coordinate of the right operand's index is the result's column coordinate. -/
theorem proj1024_r (i : S1024x256.Idx) (c : dot_S1024x256_S256x256_S1024x256_1_0_0_1_n_n.contr.Idx) :
    (dot_S1024x256_S256x256_S1024x256_1_0_0_1_n_n.rhsIdx i c 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The same for a key tile's 1024 rows. -/
theorem proj1024_apply (prec : Option ContractPrecision) (lhs : FVec Ideal S1024x256 .f32) (rhs : FVec Ideal S256x256 .f32) (p : Fin 1024) (q : Fin 256) :
    matmul dot_S1024x256_S256x256_S1024x256_1_0_0_1_n_n prec lhs rhs (constant S1024x256 .f32 0x00000000#32) (ix2 p q)
      = ∑ k : Fin 256, lhs (ix2 p k) * rhs (ix2 k q) := by
  show FloatOps.matmul dot_S1024x256_S256x256_S1024x256_1_0_0_1_n_n prec lhs rhs (constant S1024x256 .f32 0x00000000#32) (ix2 p q) = _
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact proj1024_l _ _
    | ⟨1, _⟩ => exact (dot_S1024x256_S256x256_S1024x256_1_0_0_1_n_n.lhsIdx_val_of_single rfl _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (dot_S1024x256_S256x256_S1024x256_1_0_0_1_n_n.rhsIdx_val_of_single rfl _ _).trans hk
    | ⟨1, _⟩ => exact proj1024_r _ _)
  rw [el, er]

/-- The row coordinate of the left operand's index is the result's row coordinate. -/
theorem qkT_l (i : S2048x1024.Idx) (c : dot_S2048x256_S1024x256_S2048x1024_1_1_0_0_n_n.contr.Idx) :
    (dot_S2048x256_S1024x256_S2048x1024_1_1_0_0_n_n.lhsIdx i c 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl

/-- The free coordinate of the right operand's index is the result's column coordinate. -/
theorem qkT_r (i : S2048x1024.Idx) (c : dot_S2048x256_S1024x256_S2048x1024_1_1_0_0_n_n.contr.Idx) :
    (dot_S2048x256_S1024x256_S2048x1024_1_1_0_0_n_n.rhsIdx i c 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl

/-- Queries against keys, both contracted along their feature axis: entry `(p, k)` is `∑ e, lhs (p, e) · rhs (k, e)`. -/
theorem qkT_apply (prec : Option ContractPrecision) (lhs : FVec Ideal S2048x256 .f32) (rhs : FVec Ideal S1024x256 .f32) (p : Fin 2048) (q : Fin 1024) :
    matmul dot_S2048x256_S1024x256_S2048x1024_1_1_0_0_n_n prec lhs rhs (constant S2048x1024 .f32 0x00000000#32) (ix2 p q)
      = ∑ k : Fin 256, lhs (ix2 p k) * rhs (ix2 q k) := by
  show FloatOps.matmul dot_S2048x256_S1024x256_S2048x1024_1_1_0_0_n_n prec lhs rhs (constant S2048x1024 .f32 0x00000000#32) (ix2 p q) = _
  rw [Ideal.matmul_constant_zero_apply, ← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  have el : dot_S2048x256_S1024x256_S2048x1024_1_1_0_0_n_n.lhsIdx (ix2 p q) ((contrEquiv1 dot_S2048x256_S1024x256_S2048x1024_1_1_0_0_n_n 256 rfl rfl).symm k) = ix2 p k := funext fun a => Fin.ext (by
    match a with
    | ⟨0, _⟩ => exact qkT_l _ _
    | ⟨1, _⟩ => exact (dot_S2048x256_S1024x256_S2048x1024_1_1_0_0_n_n.lhsIdx_val_of_single rfl _ _).trans hk)
  have er : dot_S2048x256_S1024x256_S2048x1024_1_1_0_0_n_n.rhsIdx (ix2 p q) ((contrEquiv1 dot_S2048x256_S1024x256_S2048x1024_1_1_0_0_n_n 256 rfl rfl).symm k) = ix2 q k := funext fun a => Fin.ext (by
    match a with
    | ⟨0, _⟩ => exact qkT_r _ _
    | ⟨1, _⟩ => exact (dot_S2048x256_S1024x256_S2048x1024_1_1_0_0_n_n.rhsIdx_val_of_single rfl _ _).trans hk)
  rw [el, er]

/-- The row coordinate of the left operand's index is the result's row coordinate. -/
theorem pv_l (i : S2048x256.Idx) (c : dot_S2048x1024_S1024x256_S2048x256_1_0_0_1_n_n.contr.Idx) :
    (dot_S2048x1024_S1024x256_S2048x256_1_0_0_1_n_n.lhsIdx i c 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl

/-- The free coordinate of the right operand's index is the result's column coordinate. -/
theorem pv_r (i : S2048x256.Idx) (c : dot_S2048x1024_S1024x256_S2048x256_1_0_0_1_n_n.contr.Idx) :
    (dot_S2048x1024_S1024x256_S2048x256_1_0_0_1_n_n.rhsIdx i c 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- Weights times values: entry `(p, e)` is `∑ k, lhs (p, k) · rhs (k, e)`. -/
theorem pv_apply (prec : Option ContractPrecision) (lhs : FVec Ideal S2048x1024 .f32) (rhs : FVec Ideal S1024x256 .f32) (p : Fin 2048) (q : Fin 256) :
    matmul dot_S2048x1024_S1024x256_S2048x256_1_0_0_1_n_n prec lhs rhs (constant S2048x256 .f32 0x00000000#32) (ix2 p q)
      = ∑ k : Fin 1024, lhs (ix2 p k) * rhs (ix2 k q) := by
  show FloatOps.matmul dot_S2048x1024_S1024x256_S2048x256_1_0_0_1_n_n prec lhs rhs (constant S2048x256 .f32 0x00000000#32) (ix2 p q) = _
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 p q) ((contrEquiv1 dot_S2048x1024_S1024x256_S2048x256_1_0_0_1_n_n 1024 rfl rfl).symm k) = ix2 p k := funext fun a => Fin.ext (by
    match a with
    | ⟨0, _⟩ => exact pv_l _ _
    | ⟨1, _⟩ => exact (dot_S2048x1024_S1024x256_S2048x256_1_0_0_1_n_n.lhsIdx_val_of_single rfl _ _).trans hk)
  have er : dot_S2048x1024_S1024x256_S2048x256_1_0_0_1_n_n.rhsIdx (ix2 p q) ((contrEquiv1 dot_S2048x1024_S1024x256_S2048x256_1_0_0_1_n_n 1024 rfl rfl).symm k) = ix2 k q := funext fun a => Fin.ext (by
    match a with
    | ⟨0, _⟩ => exact (dot_S2048x1024_S1024x256_S2048x256_1_0_0_1_n_n.rhsIdx_val_of_single rfl _ _).trans hk
    | ⟨1, _⟩ => exact pv_r _ _)
  rw [el, er]

end Cert.KernelIdeal.Mat

end
-- ==== Proof.TileAt.lean ====
import proofs.«142110_j22110491639926_2_alg».proof.Proof.TileDefs
import proofs.«142110_j22110491639926_2_alg».proof.Proof.Mat
import Idealize.ShloMosaic.Lib.ValueIdx
import Idealize.ShloMosaic.Lib.ValueLayout
import Idealize.ShloMosaic.Lib.Pipeline.Value
import Idealize.ShloMosaic.PureOps.Ideal.Laws

/-!
The fused attention kernel's per-tile arithmetic, read entry by entry over the extended reals on real data.

With the loaded blocks holding real numbers, every value the kernel body computes for one key tile is again a
real number, and is the expected expression of those reals: the projected keys and values x · W + b, the scores
s = q · kᵀ, the new running maximum m' = max m (rowmax s) (some real: a maximum of finitely many reals), the
rescaling factor exp (m − m'), the weights exp (s − m'), and the updated denominator and numerator

  l' = exp (m − m') · l + ∑ₖ exp (s ₖ − m'),   acc' = exp (m − m') · acc + ∑ₖ exp (s ₖ − m') · v ₖ.

A query tile's first step reads q = (x · Wq + bq) / 16, a finite constant for m, and zeros for l and acc;
its last step writes acc / l.
-/

noncomputable section

namespace Cert.KernelIdeal.TileAt

open Cert.KernelIdeal Cert.KernelIdeal.Gen Cert.KernelIdeal.Tile Idealize.ShloMosaic Idealize.ShloMosaic.ValueIdx

/-! ## Shape operations on a column, a row reduction at a row, and small facts on extended reals -/

section General

variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row p of an [a, b] array with the column coordinate k put back is the entry (p, k). -/
theorem lift_row {a b : ℕ} (h : Shape.Reduces (⟨2, ![a, b]⟩ : Shape) [1] ⟨1, ![a]⟩) (p : Fin a) (k : Fin b) :
    h.lift (ix1 p) k = ix2 p k :=
  funext fun c => Fin.ext (by match c with | ⟨0, _⟩ => rfl | ⟨1, _⟩ => rfl)

/-- A row sum at row p is the sum of that row's entries. -/
theorem rowsum_apply {a b : ℕ} (src : FVec Ideal ⟨2, ![a, b]⟩ .f32) (h : Shape.Reduces (⟨2, ![a, b]⟩ : Shape) [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

/-- A row maximum at row p is the fold of max, from the accumulator's value, over that row's entries. -/
theorem rowmax_apply {a b : ℕ} (src : FVec Ideal ⟨2, ![a, b]⟩ .f32) (h : Shape.Reduces (⟨2, ![a, b]⟩ : Shape) [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  exact congrArg (fun g => (Finset.univ : Finset (Fin b)).fold max (Ideal.ofBits .f32 0xFF800000#32) g)
    (funext fun k => congrArg src (lift_row h p k))

/-- The exponential of a vector at an index. -/
theorem exp_apply {s : Shape} (v : FVec Ideal s .f32) (i : s.Idx) : Idealize.ShloMosaic.exp v i = Ideal.exp (v i) := rfl

/-- The coercion of a finite sum of reals is the sum of the coercions. -/
theorem coe_sum {ι : Type} (s : Finset ι) (f : ι → ℝ) : ((∑ k ∈ s, f k : ℝ) : EReal) = ∑ k ∈ s, (f k : EReal) := by
  classical
  refine Finset.induction_on s (by simp) fun i s hi ih => ?_
  rw [Finset.sum_insert hi, Finset.sum_insert hi, EReal.coe_add, ih]

/-- A maximum, from ⊥, of finitely many reals is ⊥ or a real. -/
theorem fold_max_coe {ι : Type} (s : Finset ι) (f : ι → ℝ) :
    s.fold max (⊥ : EReal) (fun k => (f k : EReal)) = ⊥ ∨ ∃ r : ℝ, s.fold max (⊥ : EReal) (fun k => (f k : EReal)) = (r : EReal) := by
  classical
  refine Finset.induction_on s (Or.inl (by simp)) fun i s hi ih => ?_
  rw [Finset.fold_insert hi]
  rcases ih with h | ⟨r, h⟩
  · exact Or.inr ⟨f i, by rw [h, max_bot_right]⟩
  · exact Or.inr ⟨max (f i) r, by rw [h]; exact (EReal.coe_strictMono.monotone.map_max).symm⟩

/-- So its maximum with one more real is a real. -/
theorem max_fold_real {ι : Type} (s : Finset ι) (f : ι → ℝ) (a : ℝ) :
    ∃ r : ℝ, max (a : EReal) (s.fold max (⊥ : EReal) (fun k => (f k : EReal))) = (r : EReal) := by
  rcases fold_max_coe s f with h | ⟨r, h⟩
  · exact ⟨a, by rw [h, max_bot_right]⟩
  · exact ⟨max a r, by rw [h]; exact (EReal.coe_strictMono.monotone.map_max).symm⟩

/-- The pattern of -∞. -/
theorem ofBits_neg_inf : Ideal.ofBits .f32 0xFF800000#32 = ⊥ := by simp [Ideal.ofBits, Ideal.ieee]

/-- The pattern of one sixteenth. -/
theorem ofBits_sixteenth : Ideal.ofBits .f32 0x3D800000#32 = (((1 : ℝ) / 16 : ℝ) : EReal) := by
  simp [Ideal.ofBits, Ideal.ieee, -EReal.coe_mul]; norm_num

/-- The pattern the running maximum starts from is a finite number (its exponent field is not all ones). -/
theorem ofBits_big_neg : ∃ r : ℝ, Ideal.ofBits .f32 0xFF333332#32 = (r : EReal) := by
  show ∃ r : ℝ, Ideal.ieee 8 23 (0xFF333332#32 : BitVec 32) = (r : EReal)
  unfold Ideal.ieee
  dsimp only
  rw [if_neg (by decide), if_neg (by decide)]
  exact ⟨_, rfl⟩

end General

/-! ## The payloads at an entry -/

/-- The key tile's rows, the leading unit axis dropped. -/
theorem pay9_at (x1 : Vec Ideal S1x1024x256 .f32) (k : Fin 1024) (d : Fin 256) :
    k0_pay9 x1 (ix2 k d) = x1 (ix3 (0 : Fin 1) k d) := by
  unfold k0_pay9
  exact shapeCast_1ab_ab_apply x1 _ k d

/-- A projection of the key tile's rows, x · W + b, on real data. -/
theorem pay10_at (x1 : Vec Ideal S1x1024x256 .f32) (w : Vec Ideal S256x256 .f32) (b : Vec Ideal S1x256 .f32)
    (Kb : Fin 1024 → Fin 256 → ℝ) (W : Fin 256 → Fin 256 → ℝ) (B : Fin 256 → ℝ)
    (h1 : ∀ (k : Fin 1024) (d : Fin 256), x1 (ix3 (0 : Fin 1) k d) = ((Kb k d : ℝ) : EReal))
    (hw : ∀ d e : Fin 256, w (ix2 d e) = ((W d e : ℝ) : EReal))
    (hb : ∀ e : Fin 256, b (ix2 (0 : Fin 1) e) = ((B e : ℝ) : EReal))
    (k : Fin 1024) (e : Fin 256) :
    k0_pay10 x1 w b (ix2 k e) = (((∑ d, Kb k d * W d e) + B e : ℝ) : EReal) := by
  unfold k0_pay10
  simp only [shapeCast_self]
  rw [addf_apply, Mat.proj1024_apply, broadcastTo_1b_ab_apply, hb, EReal.coe_add, coe_sum]
  refine congrArg (· + _) (Finset.sum_congr rfl fun d _ => ?_)
  rw [pay9_at, h1, hw, EReal.coe_mul]

/-- The scores are the queries against the projected keys. -/
theorem pay11_eq (x1 : Vec Ideal S1x1024x256 .f32) (x4 : Vec Ideal S256x256 .f32) (x5 : Vec Ideal S1x256 .f32)
    (q : Vec Ideal S2048x256 .f32) :
    k0_pay11 x1 x4 x5 q = matmul (φ₁ := .f32) (φ₂ := .f32) dot_S2048x256_S1024x256_S2048x1024_1_1_0_0_n_n (some .fp32) q (k0_pay10 x1 x4 x5)
      (constant S2048x1024 .f32 0x00000000#32) := rfl

/-- A score on real data. -/
theorem pay11_at (x1 : Vec Ideal S1x1024x256 .f32) (x4 : Vec Ideal S256x256 .f32) (x5 : Vec Ideal S1x256 .f32)
    (q : Vec Ideal S2048x256 .f32)
    (Kb : Fin 1024 → Fin 256 → ℝ) (Wk : Fin 256 → Fin 256 → ℝ) (Bk : Fin 256 → ℝ) (qr : Fin 2048 → Fin 256 → ℝ)
    (h1 : ∀ (k : Fin 1024) (d : Fin 256), x1 (ix3 (0 : Fin 1) k d) = ((Kb k d : ℝ) : EReal))
    (h4 : ∀ d e : Fin 256, x4 (ix2 d e) = ((Wk d e : ℝ) : EReal))
    (h5 : ∀ e : Fin 256, x5 (ix2 (0 : Fin 1) e) = ((Bk e : ℝ) : EReal))
    (hq : ∀ (p : Fin 2048) (e : Fin 256), q (ix2 p e) = ((qr p e : ℝ) : EReal))
    (p : Fin 2048) (k : Fin 1024) :
    k0_pay11 x1 x4 x5 q (ix2 p k) = ((∑ e, qr p e * ((∑ d, Kb k d * Wk d e) + Bk e) : ℝ) : EReal) := by
  rw [pay11_eq, Mat.qkT_apply, coe_sum]
  refine Finset.sum_congr rfl fun e _ => ?_
  rw [hq, pay10_at x1 x4 x5 Kb Wk Bk h1 h4 h5, EReal.coe_mul]

/-- The new running maximum of a row: the old one against the maximum of the row's scores. -/
theorem pay12_eq (x1 : Vec Ideal S1x1024x256 .f32) (x4 : Vec Ideal S256x256 .f32) (x5 : Vec Ideal S1x256 .f32)
    (q : Vec Ideal S2048x256 .f32) (mx : Vec Ideal S2048x1 .f32) (p : Fin 2048) :
    k0_pay12 x1 x4 x5 q mx (ix2 p (0 : Fin 1))
      = max (mx (ix2 p (0 : Fin 1)))
          ((Finset.univ : Finset (Fin 1024)).fold max (⊥ : EReal) (fun k => k0_pay11 x1 x4 x5 q (ix2 p k))) := by
  unfold k0_pay12
  dsimp only
  refine (maximumf_apply _ _ _).trans ?_
  refine congrArg (max _) ?_
  refine (shapeCast_a_a1_apply _ _ p 0).trans ?_
  refine (rowmax_apply _ _ _ _ p).trans ?_
  rw [ofBits_neg_inf]

/-- The rescaling factor of a row, on real data. -/
theorem pay13_at (x1 : Vec Ideal S1x1024x256 .f32) (x4 : Vec Ideal S256x256 .f32) (x5 : Vec Ideal S1x256 .f32)
    (q : Vec Ideal S2048x256 .f32) (mx : Vec Ideal S2048x1 .f32) (a a' : Fin 2048 → ℝ)
    (hm : ∀ p : Fin 2048, mx (ix2 p (0 : Fin 1)) = ((a p : ℝ) : EReal))
    (h12 : ∀ p : Fin 2048, k0_pay12 x1 x4 x5 q mx (ix2 p (0 : Fin 1)) = ((a' p : ℝ) : EReal))
    (p : Fin 2048) :
    k0_pay13 x1 x4 x5 q mx (ix2 p (0 : Fin 1)) = ((Real.exp (a p - a' p) : ℝ) : EReal) := by
  unfold k0_pay13
  refine (exp_apply _ _).trans ?_
  rw [subf_apply, hm, h12, ← EReal.coe_sub, Ideal.exp_coe]

/-- A weight, on real data. -/
theorem pay14_at (x1 : Vec Ideal S1x1024x256 .f32) (x4 : Vec Ideal S256x256 .f32) (x5 : Vec Ideal S1x256 .f32)
    (q : Vec Ideal S2048x256 .f32) (mx : Vec Ideal S2048x1 .f32) (s : Fin 2048 → Fin 1024 → ℝ) (a' : Fin 2048 → ℝ)
    (hs : ∀ (p : Fin 2048) (k : Fin 1024), k0_pay11 x1 x4 x5 q (ix2 p k) = ((s p k : ℝ) : EReal))
    (h12 : ∀ p : Fin 2048, k0_pay12 x1 x4 x5 q mx (ix2 p (0 : Fin 1)) = ((a' p : ℝ) : EReal))
    (p : Fin 2048) (k : Fin 1024) :
    k0_pay14 x1 x4 x5 q mx (ix2 p k) = ((Real.exp (s p k - a' p) : ℝ) : EReal) := by
  unfold k0_pay14
  refine (exp_apply _ _).trans ?_
  rw [subf_apply, broadcastTo_a1_ab_apply, hs, h12, ← EReal.coe_sub, Ideal.exp_coe]

/-- The old denominator rescaled. -/
theorem pay15_at (x1 : Vec Ideal S1x1024x256 .f32) (x4 : Vec Ideal S256x256 .f32) (x5 : Vec Ideal S1x256 .f32)
    (q : Vec Ideal S2048x256 .f32) (mx lv : Vec Ideal S2048x1 .f32) (p : Fin 2048) :
    k0_pay15 x1 x4 x5 q mx lv (ix2 p (0 : Fin 1))
      = k0_pay13 x1 x4 x5 q mx (ix2 p (0 : Fin 1)) * lv (ix2 p (0 : Fin 1)) := rfl

/-- The new denominator of a row: the rescaled old one plus the sum of the row's weights. -/
theorem pay1_at (v29 : FVec Ideal S2048x1024 .f32) (v31 : FVec Ideal S2048x1 .f32) (p : Fin 2048) :
    k0_pay1 v29 v31 (ix2 p (0 : Fin 1)) = v31 (ix2 p (0 : Fin 1)) + ∑ k : Fin 1024, v29 (ix2 p k) := by
  unfold k0_pay1
  simp only [shapeCast_self]
  refine (addf_apply _ _ _).trans ?_
  refine congrArg (_ + ·) ?_
  refine (shapeCast_a_a1_apply _ _ p 0).trans ?_
  exact rowsum_apply _ _ _ _ p

/-- The new numerator at an entry: the rescaled old one plus the weights against the projected values. -/
theorem pay2_at (v18 : FVec Ideal S1024x256 .f32) (v26 : FVec Ideal S2048x1 .f32) (v29 : FVec Ideal S2048x1024 .f32)
    (v39 : Vec Ideal S2048x256 .f32) (p : Fin 2048) (e : Fin 256) :
    k0_pay2 v18 v26 v29 v39 (ix2 p e)
      = v26 (ix2 p (0 : Fin 1)) * v39 (ix2 p e) + ∑ k : Fin 1024, v29 (ix2 p k) * v18 (ix2 k e) := by
  unfold k0_pay2
  simp only [shapeCast_self]
  rw [addf_apply, mulf_apply, broadcastTo_a1_ab_apply, Mat.pv_apply]

/-- The output block at an entry: numerator over denominator. -/
theorem pay4_at (accv : Vec Ideal S2048x256 .f32) (lv : Vec Ideal S2048x1 .f32) (p : Fin 2048) (e : Fin 256) :
    k0_pay4 accv lv (ix3 (0 : Fin 1) p e) = Ideal.div (accv (ix2 p e)) (lv (ix2 p (0 : Fin 1))) := by
  unfold k0_pay4
  refine (shapeCast_ab_1ab_apply _ _ 0 p e).trans ?_
  rw [divf_apply, broadcastTo_a1_ab_apply]

/-- The scaled query projection at an entry. -/
theorem pay5_at (x0 : Vec Ideal S1x2048x256 .f32) (x2 : Vec Ideal S256x256 .f32) (x3 : Vec Ideal S1x256 .f32)
    (p : Fin 2048) (e : Fin 256) :
    k0_pay5 x0 x2 x3 (ix2 p e)
      = ((∑ d : Fin 256, x0 (ix3 (0 : Fin 1) p d) * x2 (ix2 d e)) + x3 (ix2 (0 : Fin 1) e)) * Ideal.ofBits .f32 0x3D800000#32 := by
  unfold k0_pay5
  simp only [shapeCast_self]
  rw [mulf_apply, addf_apply, Mat.proj2048_apply, broadcastTo_1b_ab_apply, broadcast_apply]
  simp only [shapeCast_1ab_ab_apply]
  rfl

/-! ## The carried buffers after a step, on real data -/

/-- A query tile's scaled query projection: (x · Wq + bq) / 16. -/
theorem initQ_at (x0 : Vec Ideal S1x2048x256 .f32) (x2 : Vec Ideal S256x256 .f32) (x3 : Vec Ideal S1x256 .f32)
    (X : Fin 2048 → Fin 256 → ℝ) (Wq : Fin 256 → Fin 256 → ℝ) (Bq : Fin 256 → ℝ)
    (h0 : ∀ (p : Fin 2048) (d : Fin 256), x0 (ix3 (0 : Fin 1) p d) = ((X p d : ℝ) : EReal))
    (h2 : ∀ d e : Fin 256, x2 (ix2 d e) = ((Wq d e : ℝ) : EReal))
    (h3 : ∀ e : Fin 256, x3 (ix2 (0 : Fin 1) e) = ((Bq e : ℝ) : EReal))
    (p : Fin 2048) (e : Fin 256) :
    initQ x0 x2 x3 (ix2 p e) = ((((∑ d, X p d * Wq d e) + Bq e) * (1 / 16) : ℝ) : EReal) := by
  unfold initQ
  rw [pay5_at, ofBits_sixteenth, h3, EReal.coe_mul, EReal.coe_add, coe_sum]
  refine congrArg (fun t => (t + _) * _) (Finset.sum_congr rfl fun d _ => ?_)
  rw [h0, h2, EReal.coe_mul]

/-- What a query tile's first step leaves in the carried buffers: a finite constant for the running maximum, zero for
the denominator and the numerator. -/
theorem init_consts :
    ∃ r0 : ℝ, (∀ p : Fin 2048, k0_pay6 (F := Ideal) (ix2 p (0 : Fin 1)) = (r0 : EReal))
      ∧ (∀ p : Fin 2048, k0_pay7 (F := Ideal) (ix2 p (0 : Fin 1)) = ((0 : ℝ) : EReal))
      ∧ (∀ (p : Fin 2048) (e : Fin 256), k0_pay8 (F := Ideal) (ix2 p e) = ((0 : ℝ) : EReal)) := by
  obtain ⟨r0, hr0⟩ := ofBits_big_neg
  refine ⟨r0, fun p => ?_, fun p => ?_, fun p e => ?_⟩
  · unfold k0_pay6
    simp only [shapeCast_self]
    exact hr0
  · unfold k0_pay7
    simp only [shapeCast_self]
    exact Ideal.ofBits_zero_f32.trans EReal.coe_zero.symm
  · unfold k0_pay8
    simp only [shapeCast_self]
    exact Ideal.ofBits_zero_f32.trans EReal.coe_zero.symm

/-- One key tile's update on real data: the new running maximum is some real a', and the new denominator and numerator
are the online-softmax expressions in it. -/
theorem step_real
    (x1 : Vec Ideal S1x1024x256 .f32) (x4 : Vec Ideal S256x256 .f32) (x5 : Vec Ideal S1x256 .f32)
    (x6 : Vec Ideal S256x256 .f32) (x7 : Vec Ideal S1x256 .f32)
    (q : Vec Ideal S2048x256 .f32) (mx lv : Vec Ideal S2048x1 .f32) (accv : Vec Ideal S2048x256 .f32)
    (Kb : Fin 1024 → Fin 256 → ℝ) (Wk : Fin 256 → Fin 256 → ℝ) (Bk : Fin 256 → ℝ)
    (Wv : Fin 256 → Fin 256 → ℝ) (Bv : Fin 256 → ℝ)
    (qr : Fin 2048 → Fin 256 → ℝ) (a lr : Fin 2048 → ℝ) (accr : Fin 2048 → Fin 256 → ℝ)
    (h1 : ∀ (k : Fin 1024) (d : Fin 256), x1 (ix3 (0 : Fin 1) k d) = ((Kb k d : ℝ) : EReal))
    (h4 : ∀ d e : Fin 256, x4 (ix2 d e) = ((Wk d e : ℝ) : EReal))
    (h5 : ∀ e : Fin 256, x5 (ix2 (0 : Fin 1) e) = ((Bk e : ℝ) : EReal))
    (h6 : ∀ d e : Fin 256, x6 (ix2 d e) = ((Wv d e : ℝ) : EReal))
    (h7 : ∀ e : Fin 256, x7 (ix2 (0 : Fin 1) e) = ((Bv e : ℝ) : EReal))
    (hq : ∀ (p : Fin 2048) (e : Fin 256), q (ix2 p e) = ((qr p e : ℝ) : EReal))
    (hm : ∀ p : Fin 2048, mx (ix2 p (0 : Fin 1)) = ((a p : ℝ) : EReal))
    (hl : ∀ p : Fin 2048, lv (ix2 p (0 : Fin 1)) = ((lr p : ℝ) : EReal))
    (hacc : ∀ (p : Fin 2048) (e : Fin 256), accv (ix2 p e) = ((accr p e : ℝ) : EReal)) :
    ∃ a' : Fin 2048 → ℝ,
      (∀ p : Fin 2048, stepM x1 x4 x5 q mx (ix2 p (0 : Fin 1)) = ((a' p : ℝ) : EReal))
      ∧ (∀ p : Fin 2048, stepL x1 x4 x5 q mx lv (ix2 p (0 : Fin 1))
          = ((Real.exp (a p - a' p) * lr p
              + ∑ k : Fin 1024, Real.exp ((∑ e, qr p e * ((∑ d, Kb k d * Wk d e) + Bk e)) - a' p) : ℝ) : EReal))
      ∧ (∀ (p : Fin 2048) (e : Fin 256), stepAcc x1 x4 x5 x6 x7 q mx accv (ix2 p e)
          = ((Real.exp (a p - a' p) * accr p e
              + ∑ k : Fin 1024, Real.exp ((∑ e', qr p e' * ((∑ d, Kb k d * Wk d e') + Bk e')) - a' p)
                  * ((∑ d, Kb k d * Wv d e) + Bv e) : ℝ) : EReal)) := by
  have hs := pay11_at x1 x4 x5 q Kb Wk Bk qr h1 h4 h5 hq
  have h12 : ∀ p : Fin 2048, ∃ r : ℝ, k0_pay12 x1 x4 x5 q mx (ix2 p (0 : Fin 1)) = (r : EReal) := fun p => by
    rw [pay12_eq, hm]
    simp only [hs]
    exact max_fold_real _ _ _
  choose a' ha' using h12
  have h13 := pay13_at x1 x4 x5 q mx a a' hm ha'
  have h14 := pay14_at x1 x4 x5 q mx _ a' hs ha'
  refine ⟨a', fun p => ?_, fun p => ?_, fun p e => ?_⟩
  · unfold stepM k0_pay3
    simp only [shapeCast_self]
    exact ha' p
  · unfold stepL
    rw [pay1_at, pay15_at, h13, hl, EReal.coe_add, EReal.coe_mul, coe_sum]
    exact congrArg (_ + ·) (Finset.sum_congr rfl fun k _ => h14 p k)
  · unfold stepAcc
    rw [pay2_at, h13, hacc, EReal.coe_add, EReal.coe_mul, coe_sum]
    refine congrArg (_ + ·) (Finset.sum_congr rfl fun k _ => ?_)
    rw [h14, pay10_at x1 x6 x7 Kb Wv Bv h1 h6 h7, EReal.coe_mul]

/-- The block a query tile's last step writes: numerator over denominator, where the denominator is not zero. -/
theorem outBlk_at (accv : Vec Ideal S2048x256 .f32) (lv : Vec Ideal S2048x1 .f32)
    (accr : Fin 2048 → Fin 256 → ℝ) (lr : Fin 2048 → ℝ)
    (hacc : ∀ (p : Fin 2048) (e : Fin 256), accv (ix2 p e) = ((accr p e : ℝ) : EReal))
    (hl : ∀ p : Fin 2048, lv (ix2 p (0 : Fin 1)) = ((lr p : ℝ) : EReal))
    (hl0 : ∀ p : Fin 2048, lr p ≠ 0) (p : Fin 2048) (e : Fin 256) :
    outBlk accv lv (ix3 (0 : Fin 1) p e) = ((accr p e / lr p : ℝ) : EReal) := by
  unfold outBlk
  rw [pay4_at, hacc, hl, Ideal.div_coe (hl0 p), ← EReal.coe_mul, mul_one_div]

end Cert.KernelIdeal.TileAt

end
-- ==== Proof.Blocks.lean ====
import proofs.«142110_j22110491639926_2_alg».proof.Proof.Gen.KernelIdeal.Frame
import proofs.«142110_j22110491639926_2_alg».proof.Proof.Tiles
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

/-!
Which entries of the argument arrays each grid point's blocks hold. The grid is (batch, query tile, key tile)
= (4, 2, 4) in row-major order, so point `t` is batch `t / 8`, query tile `t / 4 % 2`, key tile `t % 4`:
its query block is rows `2048 · (t / 4 % 2) + p` of batch `t / 8` of `Q`, its key block rows
`1024 · (t % 4) + k` of that batch of `K`; the weight blocks are the whole transposed matrices and the bias
blocks the biases as one row, whatever the point.
-/

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

theorem N32 : cfg0.N = 32 := N_0

/-- The batch of a grid point. -/
def bOf (t : Fin cfg0.N) : Fin 4 := ⟨t.val / 8, by have h : t.val < 32 := lt_of_lt_of_eq t.isLt N32; omega⟩
/-- The key tile of a grid point. -/
def kvOf (t : Fin cfg0.N) : Fin 4 := ⟨t.val % 4, by omega⟩
/-- Row `p` of a grid point's query tile, among all query rows. -/
def rowOf (t : Fin cfg0.N) (p : Fin 2048) : Fin 4096 := ⟨2048 * (t.val / 4 % 2) + p.val, by have := p.isLt; omega⟩

/-- The printed index maps over the grid. -/
theorem idx_facts : ∀ t : Fin cfg0.N,
    win0_0.index t (0 : Fin 3) = t.val / 8 ∧ win0_0.index t (1 : Fin 3) = t.val / 4 % 2 ∧ win0_0.index t (2 : Fin 3) = 0
    ∧ win0_1.index t (0 : Fin 3) = t.val / 8 ∧ win0_1.index t (1 : Fin 3) = t.val % 4 ∧ win0_1.index t (2 : Fin 3) = 0
    ∧ win0_8.index t (0 : Fin 3) = t.val / 8 ∧ win0_8.index t (1 : Fin 3) = t.val / 4 % 2 ∧ win0_8.index t (2 : Fin 3) = 0 :=
  (by decide +kernel : ∀ t : Fin grid0.N, _)

theorem idx_facts_w : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The arrays the host operations before the call write -/

theorem V_v0 (c : Dev nD) : (V m c main_v0 : S256x256.Idx → Elt F .f32)
    = transpose S256x256 [1, 0] (m ((c : Thread nD τ).loc main_arg2)) transposes_S256x256_S256x256_1_0 := by
  dsimp only [Gen.V, Gen.hostOps0]; after_results
theorem V_v1 (c : Dev nD) : (V m c main_v1 : S256x256.Idx → Elt F .f32)
    = transpose S256x256 [1, 0] (m ((c : Thread nD τ).loc main_arg4)) transposes_S256x256_S256x256_1_0 := by
  dsimp only [Gen.V, Gen.hostOps0]; after_results
theorem V_v2 (c : Dev nD) : (V m c main_v2 : S256x256.Idx → Elt F .f32)
    = transpose S256x256 [1, 0] (m ((c : Thread nD τ).loc main_arg6)) transposes_S256x256_S256x256_1_0 := by
  dsimp only [Gen.V, Gen.hostOps0]; after_results
theorem V_v3 (c : Dev nD) : (V m c main_v3 : S1x256.Idx → Elt F .f32)
    = shapeCast S1x256 (m ((c : Thread nD τ).loc main_arg3)) shapeCasts_S256_S1x256 := by
  dsimp only [Gen.V, Gen.hostOps0]; after_results; rfl
theorem V_v4 (c : Dev nD) : (V m c main_v4 : S1x256.Idx → Elt F .f32)
    = shapeCast S1x256 (m ((c : Thread nD τ).loc main_arg5)) shapeCasts_S256_S1x256 := by
  dsimp only [Gen.V, Gen.hostOps0]; after_results; rfl
theorem V_v5 (c : Dev nD) : (V m c main_v5 : S1x256.Idx → Elt F .f32)
    = shapeCast S1x256 (m ((c : Thread nD τ).loc main_arg7)) shapeCasts_S256_S1x256 := by
  dsimp only [Gen.V, Gen.hostOps0]; after_results; rfl

/-! ## The blocks -/

/-- The query block: rows of `Q`. -/
theorem blk0 (c : Dev nD) (t : Fin cfg0.N) (p : Fin 2048) (d : Fin 256) :
    (iblk m c 0 t : Vec F S1x2048x256 .f32) (ix3 (0 : Fin 1) p d)
      = m ((c : Thread nD τ).loc main_arg0) (ix3 (bOf t) (rowOf t p) d) := by
  obtain ⟨e0, e1, e2, -⟩ := idx_facts t
  unfold iblk
  rw [View.read_apply]
  show V m c main_arg0 _ = _
  rw [V_main_arg0]
  congr 1
  funext a; apply Fin.ext
  match a with
  | ⟨0, _⟩ => show win0_0.index t (0 : Fin 3) * 1 + 1 * 0 = t.val / 8; omega
  | ⟨1, _⟩ => show win0_0.index t (1 : Fin 3) * 2048 + 1 * p.val = 2048 * (t.val / 4 % 2) + p.val; omega
  | ⟨2, _⟩ => show win0_0.index t (2 : Fin 3) * 256 + 1 * d.val = d.val; omega

/-- The key block: rows of `K`. -/
theorem blk1 (c : Dev nD) (t : Fin cfg0.N) (k : Fin 1024) (d : Fin 256) :
    (iblk m c 1 t : Vec F S1x1024x256 .f32) (ix3 (0 : Fin 1) k d)
      = m ((c : Thread nD τ).loc main_arg1) (ix3 (bOf t) (Attn.keyOf (kvOf t) k) d) := by
  obtain ⟨-, -, -, e0, e1, e2, -⟩ := idx_facts t
  unfold iblk
  rw [View.read_apply]
  show V m c main_arg1 _ = _
  rw [V_main_arg1]
  congr 1
  funext a; apply Fin.ext
  match a with
  | ⟨0, _⟩ => show win0_1.index t (0 : Fin 3) * 1 + 1 * 0 = t.val / 8; omega
  | ⟨1, _⟩ => show win0_1.index t (1 : Fin 3) * 1024 + 1 * k.val = 1024 * (t.val % 4) + k.val; omega
  | ⟨2, _⟩ => show win0_1.index t (2 : Fin 3) * 256 + 1 * d.val = d.val; omega

/-- A weight block: the matrix transposed, entry `(d, e)` is the weight's `(e, d)`. -/
theorem blk2 (c : Dev nD) (t : Fin cfg0.N) (d e : Fin 256) :
    (iblk m c 2 t : Vec F S256x256 .f32) (ix2 d e) = m ((c : Thread nD τ).loc main_arg2) (ix2 e d) := by
  obtain ⟨e0, e1, -, -, -, -, -, -, -, -, -, -⟩ := idx_facts_w t
  unfold iblk
  rw [View.read_apply]
  show V m c main_v0 _ = _
  rw [V_v0, ← transpose_ix2_apply (m ((c : Thread nD τ).loc main_arg2)) transposes_S256x256_S256x256_1_0 d e]
  congr 1
  funext a; apply Fin.ext
  match a with
  | ⟨0, _⟩ => show win0_2.index t (0 : Fin 2) * 256 + 1 * d.val = d.val; omega
  | ⟨1, _⟩ => show win0_2.index t (1 : Fin 2) * 256 + 1 * e.val = e.val; omega

/-- A bias block: the bias as one row. -/
theorem blk3 (c : Dev nD) (t : Fin cfg0.N) (e : Fin 256) :
    (iblk m c 3 t : Vec F S1x256 .f32) (ix2 (0 : Fin 1) e) = m ((c : Thread nD τ).loc main_arg3) (ix1 e) := by
  obtain ⟨-, -, e0, e1, -, -, -, -, -, -, -, -⟩ := idx_facts_w t
  unfold iblk
  rw [View.read_apply]
  show V m c main_v3 _ = _
  rw [V_v3, ← shapeCast_a_1a_apply (m ((c : Thread nD τ).loc main_arg3)) shapeCasts_S256_S1x256 (0 : Fin 1) e]
  congr 1
  funext a; apply Fin.ext
  match a with
  | ⟨0, _⟩ => show win0_3.index t (0 : Fin 2) * 1 + 1 * 0 = 0; omega
  | ⟨1, _⟩ => show win0_3.index t (1 : Fin 2) * 256 + 1 * e.val = e.val; omega

/-- A weight block: the matrix transposed, entry `(d, e)` is the weight's `(e, d)`. -/
theorem blk4 (c : Dev nD) (t : Fin cfg0.N) (d e : Fin 256) :
    (iblk m c 4 t : Vec F S256x256 .f32) (ix2 d e) = m ((c : Thread nD τ).loc main_arg4) (ix2 e d) := by
  obtain ⟨-, -, -, -, e0, e1, -, -, -, -, -, -⟩ := idx_facts_w t
  unfold iblk
  rw [View.read_apply]
  show V m c main_v1 _ = _
  rw [V_v1, ← transpose_ix2_apply (m ((c : Thread nD τ).loc main_arg4)) transposes_S256x256_S256x256_1_0 d e]
  congr 1
  funext a; apply Fin.ext
  match a with
  | ⟨0, _⟩ => show win0_4.index t (0 : Fin 2) * 256 + 1 * d.val = d.val; omega
  | ⟨1, _⟩ => show win0_4.index t (1 : Fin 2) * 256 + 1 * e.val = e.val; omega

/-- A bias block: the bias as one row. -/
theorem blk5 (c : Dev nD) (t : Fin cfg0.N) (e : Fin 256) :
    (iblk m c 5 t : Vec F S1x256 .f32) (ix2 (0 : Fin 1) e) = m ((c : Thread nD τ).loc main_arg5) (ix1 e) := by
  obtain ⟨-, -, -, -, -, -, e0, e1, -, -, -, -⟩ := idx_facts_w t
  unfold iblk
  rw [View.read_apply]
  show V m c main_v4 _ = _
  rw [V_v4, ← shapeCast_a_1a_apply (m ((c : Thread nD τ).loc main_arg5)) shapeCasts_S256_S1x256 (0 : Fin 1) e]
  congr 1
  funext a; apply Fin.ext
  match a with
  | ⟨0, _⟩ => show win0_5.index t (0 : Fin 2) * 1 + 1 * 0 = 0; omega
  | ⟨1, _⟩ => show win0_5.index t (1 : Fin 2) * 256 + 1 * e.val = e.val; omega

/-- A weight block: the matrix transposed, entry `(d, e)` is the weight's `(e, d)`. -/
theorem blk6 (c : Dev nD) (t : Fin cfg0.N) (d e : Fin 256) :
    (iblk m c 6 t : Vec F S256x256 .f32) (ix2 d e) = m ((c : Thread nD τ).loc main_arg6) (ix2 e d) := by
  obtain ⟨-, -, -, -, -, -, -, -, e0, e1, -, -⟩ := idx_facts_w t
  unfold iblk
  rw [View.read_apply]
  show V m c main_v2 _ = _
  rw [V_v2, ← transpose_ix2_apply (m ((c : Thread nD τ).loc main_arg6)) transposes_S256x256_S256x256_1_0 d e]
  congr 1
  funext a; apply Fin.ext
  match a with
  | ⟨0, _⟩ => show win0_6.index t (0 : Fin 2) * 256 + 1 * d.val = d.val; omega
  | ⟨1, _⟩ => show win0_6.index t (1 : Fin 2) * 256 + 1 * e.val = e.val; omega

/-- A bias block: the bias as one row. -/
theorem blk7 (c : Dev nD) (t : Fin cfg0.N) (e : Fin 256) :
    (iblk m c 7 t : Vec F S1x256 .f32) (ix2 (0 : Fin 1) e) = m ((c : Thread nD τ).loc main_arg7) (ix1 e) := by
  obtain ⟨-, -, -, -, -, -, -, -, -, -, e0, e1⟩ := idx_facts_w t
  unfold iblk
  rw [View.read_apply]
  show V m c main_v5 _ = _
  rw [V_v5, ← shapeCast_a_1a_apply (m ((c : Thread nD τ).loc main_arg7)) shapeCasts_S256_S1x256 (0 : Fin 1) e]
  congr 1
  funext a; apply Fin.ext
  match a with
  | ⟨0, _⟩ => show win0_7.index t (0 : Fin 2) * 1 + 1 * 0 = 0; omega
  | ⟨1, _⟩ => show win0_7.index t (1 : Fin 2) * 256 + 1 * e.val = e.val; omega

/-! ## The output blocks

The output array is cut like the queries: grid point `t` owns rows `2048 · (t / 4 % 2) + p` of batch `t / 8`,
and writes them back at the last key tile of its query tile, `t % 4 = 3`. Every entry of the output lies in
the block of exactly such a point. -/

/-- Entry `(u, p, e)` of a point's output block is entry `(batch, row, e)` of the output. -/
theorem emb8 (t : Fin cfg0.N) (u : Fin 1) (p : Fin 2048) (e : Fin 256) :
    (((cfg0.win 8).blk t).view.emb (ix3 u p e : S1x2048x256.Idx) : S4x4096x256.Idx)
      = ix3 (bOf t) (rowOf t p) e := by
  obtain ⟨-, -, -, -, -, -, e0, e1, e2⟩ := idx_facts t
  have hu : u.val = 0 := by omega
  funext a; apply Fin.ext
  match a with
  | ⟨0, _⟩ => show win0_8.index t (0 : Fin 3) * 1 + 1 * u.val = t.val / 8; omega
  | ⟨1, _⟩ => show win0_8.index t (1 : Fin 3) * 2048 + 1 * p.val = 2048 * (t.val / 4 % 2) + p.val; omega
  | ⟨2, _⟩ => show win0_8.index t (2 : Fin 3) * 256 + 1 * e.val = e.val; omega

/-- An entry of the output is in a point's output block iff each coordinate is in the block's range. -/
theorem mem_blk8 (t : Fin cfg0.N) (i : S4x4096x256.Idx) :
    i ∈ ((cfg0.win 8).blk t).view.set ↔ ∀ a : Fin 3, win0_8.index t a * S1x2048x256.size a ≤ (i a).val
      ∧ (i a).val < win0_8.index t a * S1x2048x256.size a + S1x2048x256.size a := by
  show i ∈ ((View.whole main_v6).slice (win0_8.rect t)).set ↔ _
  rw [View.set_slice_whole, Rect.mem_set_unit]
  exact Iff.rfl

/-- A row is row `p` of one of the two query tiles. -/
theorem row_split (r : Fin 4096) : ∃ (qi : Fin 2) (p : Fin 2048), r.val = 2048 * qi.val + p.val :=
  ⟨⟨r.val / 2048, by have := r.isLt; omega⟩, ⟨r.val % 2048, by omega⟩, by
    show r.val = 2048 * (r.val / 2048) + r.val % 2048
    omega⟩

/-- The grid point that writes back query tile `qi` of batch `b`: its last key tile. -/
def lastOf (b : Fin 4) (qi : Fin 2) : Fin cfg0.N :=
  ⟨8 * b.val + 4 * qi.val + 3, by
    have hb := b.isLt; have hq := qi.isLt
    exact lt_of_lt_of_eq (show 8 * b.val + 4 * qi.val + 3 < 32 by omega) N32.symm⟩

theorem lastOf_val (b : Fin 4) (qi : Fin 2) : (lastOf b qi).val = 8 * b.val + 4 * qi.val + 3 := rfl

theorem lastOf_mod (b : Fin 4) (qi : Fin 2) : (lastOf b qi).val % 4 = 3 := by
  rw [lastOf_val]; omega

theorem bOf_lastOf (b : Fin 4) (qi : Fin 2) : bOf (lastOf b qi) = b := by
  apply Fin.ext
  show (lastOf b qi).val / 8 = b.val
  rw [lastOf_val]; have := qi.isLt; omega

theorem kvOf_lastOf (b : Fin 4) (qi : Fin 2) : kvOf (lastOf b qi) = 3 := by
  apply Fin.ext
  show (lastOf b qi).val % 4 = 3
  exact lastOf_mod b qi

theorem rowOf_lastOf_val (b : Fin 4) (qi : Fin 2) (p : Fin 2048) :
    (rowOf (lastOf b qi) p).val = 2048 * qi.val + p.val := by
  show 2048 * ((lastOf b qi).val / 4 % 2) + p.val = 2048 * qi.val + p.val
  rw [lastOf_val]; have := qi.isLt; omega

/-- Every entry of the output is in the block of a point that writes back: the last key tile of the entry's
    batch and query tile. -/
theorem cover8 (i : S4x4096x256.Idx) :
    ∃ t : Fin cfg0.N, (cfg0.win 8).flush t = true ∧ i ∈ ((cfg0.win 8).blk t).view.set := by
  have h0 : (i 0).val < 4 := (i 0).isLt
  have h1 : (i 1).val < 4096 := (i 1).isLt
  have h2 : (i 2).val < 256 := (i 2).isLt
  have ht : (lastOf ⟨(i 0).val, h0⟩ ⟨(i 1).val / 2048, by omega⟩).val
      = 8 * (i 0).val + 4 * ((i 1).val / 2048) + 3 := rfl
  generalize lastOf ⟨(i 0).val, h0⟩ ⟨(i 1).val / 2048, by omega⟩ = t at ht
  obtain ⟨-, -, -, -, -, -, e0, e1, e2⟩ := idx_facts t
  refine ⟨t, (flush0_8 t).2 (by omega), ?_⟩
  rw [mem_blk8]
  intro a
  match a with
  | ⟨0, _⟩ =>
    show win0_8.index t (0 : Fin 3) * 1 ≤ (i 0).val ∧ (i 0).val < win0_8.index t (0 : Fin 3) * 1 + 1
    omega
  | ⟨1, _⟩ =>
    show win0_8.index t (1 : Fin 3) * 2048 ≤ (i 1).val ∧ (i 1).val < win0_8.index t (1 : Fin 3) * 2048 + 2048
    omega
  | ⟨2, _⟩ =>
    show win0_8.index t (2 : Fin 3) * 256 ≤ (i 2).val ∧ (i 2).val < win0_8.index t (2 : Fin 3) * 256 + 256
    omega

end Cert.KernelIdeal.Blocks

end
-- ==== Proof.Inv.lean ====
import proofs.«142110_j22110491639926_2_alg».proof.Proof.Spec
import proofs.«142110_j22110491639926_2_alg».proof.Proof.Tiles
import proofs.«142110_j22110491639926_2_alg».proof.Proof.Online
import proofs.«142110_j22110491639926_2_alg».proof.Proof.TileDefs
import proofs.«142110_j22110491639926_2_alg».proof.Proof.Pieces
import proofs.«142110_j22110491639926_2_alg».proof.Proof.TileAt
import proofs.«142110_j22110491639926_2_alg».proof.Proof.Blocks
import Idealize.ShloMosaic.Lib.ValueIdx

/-!
The carried buffers, point by point, on real data. With every argument array the coercion of a real array, after
the point of batch `b`, query tile `qi` and key tile `kv` the buffers hold, row by row: the scaled query
projection; a real running maximum `a`; and the denominator and numerator
`exp (-a) · ∑ exp (s g)`, `exp (-a) · ∑ exp (s g) · v g e` over the keys `g` of tiles `0 … kv` — by induction on the
point, each key tile's update being one step of the running-maximum accumulation. After the last key tile their
quotient, which is what the kernel writes, is attention.
-/

set_option maxRecDepth 16384

noncomputable section

namespace Cert.KernelIdeal.Inv

open Cert.KernelIdeal Cert.KernelIdeal.Gen Cert.KernelIdeal.Tile Cert.KernelIdeal.Blocks
open Idealize.ShloMosaic Idealize.ShloMosaic.TcCoe Idealize.SL.Sem Idealize.ShloMosaic.ValueIdx

/-- A rank-3 real array by coordinates. -/
def Ar (x : S4x4096x256.Idx → ℝ) : Fin 4 → Fin 4096 → Fin 256 → ℝ := fun b r d => x (ix3 b r d)
/-- A weight matrix by coordinates (output feature, input feature). -/
def Wt (x : S256x256.Idx → ℝ) : Fin 256 → Fin 256 → ℝ := fun e d => x (ix2 e d)
/-- A bias by coordinate. -/
def Bs (x : S256.Idx → ℝ) : Fin 256 → ℝ := fun e => x (ix1 e)

/-- The argument arrays of device `c` are the coercions of real arrays. -/
structure RealArgs (m : (ℓ : Loc nD τ sig) → Buf (Elt Ideal) ℓ) (c : Dev nD)
    (x0 x1 : S4x4096x256.Idx → ℝ) (x2 : S256x256.Idx → ℝ) (x3 : S256.Idx → ℝ) (x4 : S256x256.Idx → ℝ) (x5 : S256.Idx → ℝ)
    (x6 : S256x256.Idx → ℝ) (x7 : S256.Idx → ℝ) : Prop where
  h0 : m ((c : Thread nD τ).loc main_arg0) = fun i => ((x0 i : ℝ) : EReal)
  h1 : m ((c : Thread nD τ).loc main_arg1) = fun i => ((x1 i : ℝ) : EReal)
  h2 : m ((c : Thread nD τ).loc main_arg2) = fun i => ((x2 i : ℝ) : EReal)
  h3 : m ((c : Thread nD τ).loc main_arg3) = fun i => ((x3 i : ℝ) : EReal)
  h4 : m ((c : Thread nD τ).loc main_arg4) = fun i => ((x4 i : ℝ) : EReal)
  h5 : m ((c : Thread nD τ).loc main_arg5) = fun i => ((x5 i : ℝ) : EReal)
  h6 : m ((c : Thread nD τ).loc main_arg6) = fun i => ((x6 i : ℝ) : EReal)
  h7 : m ((c : Thread nD τ).loc main_arg7) = fun i => ((x7 i : ℝ) : EReal)

variable {m : (ℓ : Loc nD τ sig) → Buf (Elt Ideal) ℓ} {c : Dev nD}
variable {x0 x1 : S4x4096x256.Idx → ℝ} {x2 x4 x6 : S256x256.Idx → ℝ} {x3 x5 x7 : S256.Idx → ℝ}

/-- The scaled query projection. -/
def qR (x0 : S4x4096x256.Idx → ℝ) (x2 : S256x256.Idx → ℝ) (x3 : S256.Idx → ℝ) (b : Fin 4) (r : Fin 4096) (e : Fin 256) : ℝ :=
  Attn.proj (Ar x0 b r) (Wt x2) (Bs x3) e * (1 / 16)

/-! ## The blocks on real data -/

theorem X0 (H : RealArgs m c x0 x1 x2 x3 x4 x5 x6 x7) (t : Fin cfg0.N) (p : Fin 2048) (d : Fin 256) :
    (iblk m c 0 t : Vec Ideal S1x2048x256 .f32) (ix3 (0 : Fin 1) p d) = ((Ar x0 (bOf t) (rowOf t p) d : ℝ) : EReal) := by
  rw [blk0, H.h0]; rfl
theorem X1 (H : RealArgs m c x0 x1 x2 x3 x4 x5 x6 x7) (t : Fin cfg0.N) (k : Fin 1024) (d : Fin 256) :
    (iblk m c 1 t : Vec Ideal S1x1024x256 .f32) (ix3 (0 : Fin 1) k d) = ((Ar x1 (bOf t) (Attn.keyOf (kvOf t) k) d : ℝ) : EReal) := by
  rw [blk1, H.h1]; rfl
theorem X2 (H : RealArgs m c x0 x1 x2 x3 x4 x5 x6 x7) (t : Fin cfg0.N) (d e : Fin 256) :
    (iblk m c 2 t : Vec Ideal S256x256 .f32) (ix2 d e) = ((Wt x2 e d : ℝ) : EReal) := by
  rw [blk2, H.h2]; rfl
theorem X3 (H : RealArgs m c x0 x1 x2 x3 x4 x5 x6 x7) (t : Fin cfg0.N) (e : Fin 256) :
    (iblk m c 3 t : Vec Ideal S1x256 .f32) (ix2 (0 : Fin 1) e) = ((Bs x3 e : ℝ) : EReal) := by
  rw [blk3, H.h3]; rfl
theorem X4 (H : RealArgs m c x0 x1 x2 x3 x4 x5 x6 x7) (t : Fin cfg0.N) (d e : Fin 256) :
    (iblk m c 4 t : Vec Ideal S256x256 .f32) (ix2 d e) = ((Wt x4 e d : ℝ) : EReal) := by
  rw [blk4, H.h4]; rfl
theorem X5 (H : RealArgs m c x0 x1 x2 x3 x4 x5 x6 x7) (t : Fin cfg0.N) (e : Fin 256) :
    (iblk m c 5 t : Vec Ideal S1x256 .f32) (ix2 (0 : Fin 1) e) = ((Bs x5 e : ℝ) : EReal) := by
  rw [blk5, H.h5]; rfl
theorem X6 (H : RealArgs m c x0 x1 x2 x3 x4 x5 x6 x7) (t : Fin cfg0.N) (d e : Fin 256) :
    (iblk m c 6 t : Vec Ideal S256x256 .f32) (ix2 d e) = ((Wt x6 e d : ℝ) : EReal) := by
  rw [blk6, H.h6]; rfl
theorem X7 (H : RealArgs m c x0 x1 x2 x3 x4 x5 x6 x7) (t : Fin cfg0.N) (e : Fin 256) :
    (iblk m c 7 t : Vec Ideal S1x256 .f32) (ix2 (0 : Fin 1) e) = ((Bs x7 e : ℝ) : EReal) := by
  rw [blk7, H.h7]; rfl

/-! ## The invariant -/

/-- The scores of a query row against all keys. -/
abbrev sR (x0 x1 : S4x4096x256.Idx → ℝ) (x2 x4 : S256x256.Idx → ℝ) (x3 x5 : S256.Idx → ℝ) (b : Fin 4) (r : Fin 4096) : Fin 4096 → ℝ :=
  fun g => Attn.score (Ar x0) (Ar x1) (Wt x2) (Wt x4) (Bs x3) (Bs x5) b r g
/-- The projected values, feature `e`, of all keys. -/
abbrev vR (x1 : S4x4096x256.Idx → ℝ) (x6 : S256x256.Idx → ℝ) (x7 : S256.Idx → ℝ) (b : Fin 4) (e : Fin 256) : Fin 4096 → ℝ :=
  fun g => Attn.proj (Ar x1 b g) (Wt x6) (Bs x7) e

/-- What the carried buffers hold after point `t`. -/
def Good (m : (ℓ : Loc nD τ sig) → Buf (Elt Ideal) ℓ) (c : Dev nD)
    (x0 x1 : S4x4096x256.Idx → ℝ) (x2 x4 x6 : S256x256.Idx → ℝ) (x3 x5 x7 : S256.Idx → ℝ) (n : ℕ) (hn : n < cfg0.N) : Prop :=
  (∀ (p : Fin 2048) (e : Fin 256), (outsAt0 m c n hn).2.1 (ix2 p e) = ((qR x0 x2 x3 (bOf ⟨n, hn⟩) (rowOf ⟨n, hn⟩ p) e : ℝ) : EReal))
  ∧ ∃ (a l : Fin 2048 → ℝ) (acc : Fin 2048 → Fin 256 → ℝ),
      (∀ p : Fin 2048, (outsAt0 m c n hn).2.2.1 (ix2 p (0 : Fin 1)) = ((a p : ℝ) : EReal))
      ∧ (∀ p : Fin 2048, (outsAt0 m c n hn).2.2.2.1 (ix2 p (0 : Fin 1)) = ((l p : ℝ) : EReal))
      ∧ (∀ (p : Fin 2048) (e : Fin 256), (outsAt0 m c n hn).2.2.2.2 (ix2 p e) = ((acc p e : ℝ) : EReal))
      ∧ ∀ (p : Fin 2048) (e : Fin 256), Attn.Partial (sR x0 x1 x2 x4 x3 x5 (bOf ⟨n, hn⟩) (rowOf ⟨n, hn⟩ p)) (vR x1 x6 x7 (bOf ⟨n, hn⟩) e)
          (Attn.seen (n % 4 + 1)) (a p) (l p) (acc p e)

theorem bOf_pred (n : ℕ) (hn : n < cfg0.N) (hp : n - 1 < cfg0.N) (h0 : ¬n % 4 = 0) : bOf ⟨n - 1, hp⟩ = bOf ⟨n, hn⟩ :=
  Fin.ext (by show (n - 1) / 8 = n / 8; omega)
theorem rowOf_pred (n : ℕ) (hn : n < cfg0.N) (hp : n - 1 < cfg0.N) (h0 : ¬n % 4 = 0) (p : Fin 2048) :
    rowOf ⟨n - 1, hp⟩ p = rowOf ⟨n, hn⟩ p :=
  Fin.ext (by show 2048 * ((n - 1) / 4 % 2) + p.val = 2048 * (n / 4 % 2) + p.val; omega)

/-- One key tile's update keeps the invariant: the data of `TileAt.step_real` at point `t`. -/
theorem step_good (H : RealArgs m c x0 x1 x2 x3 x4 x5 x6 x7) (n : ℕ) (hn : n < cfg0.N)
    (q : Vec Ideal S2048x256 .f32) (mx lv : Vec Ideal S2048x1 .f32) (accv : Vec Ideal S2048x256 .f32)
    (a l : Fin 2048 → ℝ) (acc : Fin 2048 → Fin 256 → ℝ)
    (hq : ∀ (p : Fin 2048) (e : Fin 256), q (ix2 p e) = ((qR x0 x2 x3 (bOf ⟨n, hn⟩) (rowOf ⟨n, hn⟩ p) e : ℝ) : EReal))
    (hm : ∀ p : Fin 2048, mx (ix2 p (0 : Fin 1)) = ((a p : ℝ) : EReal))
    (hl : ∀ p : Fin 2048, lv (ix2 p (0 : Fin 1)) = ((l p : ℝ) : EReal))
    (hacc : ∀ (p : Fin 2048) (e : Fin 256), accv (ix2 p e) = ((acc p e : ℝ) : EReal))
    (hP : ∀ (p : Fin 2048) (e : Fin 256), Attn.Partial (sR x0 x1 x2 x4 x3 x5 (bOf ⟨n, hn⟩) (rowOf ⟨n, hn⟩ p)) (vR x1 x6 x7 (bOf ⟨n, hn⟩) e)
        (Attn.seen (n % 4)) (a p) (l p) (acc p e)) :
    ∃ (a' l' : Fin 2048 → ℝ) (acc' : Fin 2048 → Fin 256 → ℝ),
      (∀ p : Fin 2048, stepM (iblk m c 1 ⟨n, hn⟩) (iblk m c 4 ⟨n, hn⟩) (iblk m c 5 ⟨n, hn⟩) q mx (ix2 p (0 : Fin 1)) = ((a' p : ℝ) : EReal))
      ∧ (∀ p : Fin 2048, stepL (iblk m c 1 ⟨n, hn⟩) (iblk m c 4 ⟨n, hn⟩) (iblk m c 5 ⟨n, hn⟩) q mx lv (ix2 p (0 : Fin 1)) = ((l' p : ℝ) : EReal))
      ∧ (∀ (p : Fin 2048) (e : Fin 256), stepAcc (iblk m c 1 ⟨n, hn⟩) (iblk m c 4 ⟨n, hn⟩) (iblk m c 5 ⟨n, hn⟩) (iblk m c 6 ⟨n, hn⟩) (iblk m c 7 ⟨n, hn⟩) q mx accv (ix2 p e) = ((acc' p e : ℝ) : EReal))
      ∧ ∀ (p : Fin 2048) (e : Fin 256), Attn.Partial (sR x0 x1 x2 x4 x3 x5 (bOf ⟨n, hn⟩) (rowOf ⟨n, hn⟩ p)) (vR x1 x6 x7 (bOf ⟨n, hn⟩) e)
          (Attn.seen (n % 4 + 1)) (a' p) (l' p) (acc' p e) := by
  obtain ⟨a', hM, hL, hA⟩ := TileAt.step_real (iblk m c 1 ⟨n, hn⟩) (iblk m c 4 ⟨n, hn⟩) (iblk m c 5 ⟨n, hn⟩) (iblk m c 6 ⟨n, hn⟩) (iblk m c 7 ⟨n, hn⟩) q mx lv accv
    (fun k d => Ar x1 (bOf ⟨n, hn⟩) (Attn.keyOf (kvOf ⟨n, hn⟩) k) d) (fun d e => Wt x4 e d) (Bs x5) (fun d e => Wt x6 e d) (Bs x7)
    (fun p e => qR x0 x2 x3 (bOf ⟨n, hn⟩) (rowOf ⟨n, hn⟩ p) e) a l acc
    (X1 H ⟨n, hn⟩) (X4 H ⟨n, hn⟩) (X5 H ⟨n, hn⟩) (X6 H ⟨n, hn⟩) (X7 H ⟨n, hn⟩) hq hm hl hacc
  refine ⟨a', _, _, hM, hL, hA, fun p e => ?_⟩
  exact (hP p e).tile (kvOf ⟨n, hn⟩) (a' p)

/-- The invariant holds after every point. -/
theorem good (H : RealArgs m c x0 x1 x2 x3 x4 x5 x6 x7) : ∀ (n : ℕ) (hn : n < cfg0.N), Good m c x0 x1 x2 x4 x6 x3 x5 x7 n hn := by
  intro n
  induction n using Nat.strong_induction_on with
  | _ n ih =>
    intro hn
    by_cases h0 : n % 4 = 0
    · have h1 : ¬n % 4 = 3 := by omega
      have e : outsAt0 m c n hn = _ := outs_first m c ⟨n, hn⟩ h0 h1
      obtain ⟨r0, k6, k7, k8⟩ := TileAt.init_consts
      have hq : ∀ (p : Fin 2048) (e : Fin 256), initQ (iblk m c 0 ⟨n, hn⟩) (iblk m c 2 ⟨n, hn⟩) (iblk m c 3 ⟨n, hn⟩) (ix2 p e)
          = ((qR x0 x2 x3 (bOf ⟨n, hn⟩) (rowOf ⟨n, hn⟩ p) e : ℝ) : EReal) := fun p e =>
        TileAt.initQ_at (iblk m c 0 ⟨n, hn⟩) (iblk m c 2 ⟨n, hn⟩) (iblk m c 3 ⟨n, hn⟩)
          (fun p d => Ar x0 (bOf ⟨n, hn⟩) (rowOf ⟨n, hn⟩ p) d) (fun d e => Wt x2 e d) (Bs x3)
          (X0 H ⟨n, hn⟩) (X2 H ⟨n, hn⟩) (X3 H ⟨n, hn⟩) p e
      have hP : ∀ (p : Fin 2048) (e : Fin 256), Attn.Partial (sR x0 x1 x2 x4 x3 x5 (bOf ⟨n, hn⟩) (rowOf ⟨n, hn⟩ p)) (vR x1 x6 x7 (bOf ⟨n, hn⟩) e)
          (Attn.seen (n % 4)) r0 0 0 := fun p e => by rw [h0]; exact Attn.Partial.start _ _ r0
      obtain ⟨a', l', acc', hM, hL, hA, hP'⟩ := step_good H n hn _ _ _ _ (fun _ => r0) (fun _ => 0) (fun _ _ => 0) hq k6 k7 k8 hP
      refine ⟨fun p e' => ?_, a', l', acc', fun p => ?_, fun p => ?_, fun p e' => ?_, hP'⟩
      · rw [e]; exact hq p e'
      · rw [e]; exact hM p
      · rw [e]; exact hL p
      · rw [e]; exact hA p e'
    · have hp : n - 1 < cfg0.N := by omega
      obtain ⟨gq, a, l, acc, gm, gl, gacc, gP⟩ := ih (n - 1) (by omega) hp
      have hseen : (n - 1) % 4 + 1 = n % 4 := by omega
      have hq : ∀ (p : Fin 2048) (e : Fin 256), (outsAt0 m c (n - 1) hp).2.1 (ix2 p e)
          = ((qR x0 x2 x3 (bOf ⟨n, hn⟩) (rowOf ⟨n, hn⟩ p) e : ℝ) : EReal) := fun p e => by
        rw [gq p e, bOf_pred n hn hp h0, rowOf_pred n hn hp h0]
      have hP : ∀ (p : Fin 2048) (e : Fin 256), Attn.Partial (sR x0 x1 x2 x4 x3 x5 (bOf ⟨n, hn⟩) (rowOf ⟨n, hn⟩ p)) (vR x1 x6 x7 (bOf ⟨n, hn⟩) e)
          (Attn.seen (n % 4)) (a p) (l p) (acc p e) := fun p e => by
        have := gP p e
        rw [hseen, bOf_pred n hn hp h0, rowOf_pred n hn hp h0] at this
        exact this
      obtain ⟨a', l', acc', hM, hL, hA, hP'⟩ := step_good H n hn _ _ _ _ a l acc hq gm gl gacc hP
      by_cases h1 : n % 4 = 3
      ·
        have e : outsAt0 m c n hn = _ := outs_last m c ⟨n, hn⟩ h0 h1
        refine ⟨fun p e' => ?_, a', l', acc', fun p => ?_, fun p => ?_, fun p e' => ?_, hP'⟩
        · rw [e]; exact hq p e'
        · rw [e]; exact hM p
        · rw [e]; exact hL p
        · rw [e]; exact hA p e'
      ·
        have e : outsAt0 m c n hn = _ := outs_middle m c ⟨n, hn⟩ h0 h1
        refine ⟨fun p e' => ?_, a', l', acc', fun p => ?_, fun p => ?_, fun p e' => ?_, hP'⟩
        · rw [e]; exact hq p e'
        · rw [e]; exact hM p
        · rw [e]; exact hL p
        · rw [e]; exact hA p e'

/-- At a query tile's last key tile the output block is the new numerator over the new denominator. -/
theorem out_eq (t : Fin cfg0.N) (h1 : t.val % 4 = 3) :
    (outsAt0 m c t.val t.isLt).1 = outBlk (outsAt0 m c t.val t.isLt).2.2.2.2 (outsAt0 m c t.val t.isLt).2.2.2.1 := by
  have e := outs_last m c t (by omega) h1
  rw [e]

/-- Attention of the real arguments, as an array of extended reals. -/
def G (x0 x1 : S4x4096x256.Idx → ℝ) (x2 x4 x6 : S256x256.Idx → ℝ) (x3 x5 x7 : S256.Idx → ℝ) : S4x4096x256.Idx → EReal :=
  fun i => ((Attn.attn (Ar x0) (Ar x1) (Wt x2) (Wt x4) (Wt x6) (Bs x3) (Bs x5) (Bs x7) (i 0) (i 1) (i 2) : ℝ) : EReal)

/-- The output block a query tile's last key tile writes is attention, row by row. -/
theorem out_block (H : RealArgs m c x0 x1 x2 x3 x4 x5 x6 x7) (t : Fin cfg0.N) (h1 : t.val % 4 = 3) (p : Fin 2048) (e : Fin 256) :
    (outsAt0 m c t.val t.isLt).1 (ix3 (0 : Fin 1) p e) = G x0 x1 x2 x4 x6 x3 x5 x7 (ix3 (bOf t) (rowOf t p) e) := by
  obtain ⟨-, a, l, acc, -, gl, gacc, gP⟩ := good H t.val t.isLt
  rw [out_eq t h1]
  have hd : ∀ p e, l p ≠ 0 ∧ acc p e / l p = Attn.wavg (sR x0 x1 x2 x4 x3 x5 (bOf t) (rowOf t p)) (vR x1 x6 x7 (bOf t) e) := fun p e => by
    have := gP p e
    rw [h1] at this
    exact this.done
  rw [TileAt.outBlk_at _ _ acc l gacc gl (fun p => (hd p ⟨0, by decide⟩).1) p e, (hd p e).2]
  rfl

end Cert.KernelIdeal.Inv

end
-- ==== Proof.Final.lean ====
import proofs.«142110_j22110491639926_2_alg».proof.Proof.Gen.KernelIdeal.Value
import proofs.«142110_j22110491639926_2_alg».proof.Proof.Blocks
import Idealize.ShloMosaic.Lib.Pipeline.Value
import Idealize.ShloMosaic.Lib.ValueIdx

/-!
The kernel's result array from its blocks. The result is written back one block at a time, at the last key
tile of each (batch, query tile): grid point `t` with `t % 4 = 3` writes rows `2048 · (t / 4 % 2) + p` of batch
`t / 8`. These blocks cover the array. So if every block written back agrees, entry by entry, with one array
`G` read at the block's place, the array is `G` after the run.
-/

set_option maxRecDepth 16384

noncomputable section

namespace Cert.KernelIdeal.Final

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

/-- What a point that writes back writes is its block of `G`, once its entries are `G`'s at the block's rows. -/
theorem flushed_eq (m : (ℓ : Loc nD τ sig) → Buf (Elt Ideal) ℓ) (c : Dev nD) (G : S4x4096x256.Idx → EReal)
    (hout : ∀ t : Fin cfg0.N, t.val % 4 = 3 → ∀ (p : Fin 2048) (e : Fin 256),
      (outsAt0 m c t.val t.isLt).1 (ix3 (0 : Fin 1) p e) = G (ix3 (bOf t) (rowOf t p) e))
    (t : Fin cfg0.N) (hf : (cfg0.win 8).flush t = true) :
    (dats m 0 c).flushed 8 t = ((cfg0.win 8).blk t).view.read (Elt Ideal) G := by
  have h1 : t.val % 4 = 3 := (flush0_8 t).mp hf
  rw [Cert.KernelIdeal.Value.flushed8]
  funext j
  obtain ⟨u, p, e, rfl⟩ : ∃ (u : Fin 1) (p : Fin 2048) (e : Fin 256), j = ix3 u p e := ⟨j 0, j 1, j 2, eq_ix3 j⟩
  obtain rfl : u = 0 := Subsingleton.elim _ _
  show (outsAt0 m c t.val t.isLt).1 (ix3 (0 : Fin 1) p e) = G (((cfg0.win 8).blk t).view.emb (ix3 (0 : Fin 1) p e))
  rw [hout t h1 p e, emb8]

/-- The result array after the run is `G`, once every block written back is `G`'s. -/
theorem final_of (m : (ℓ : Loc nD τ sig) → Buf (Elt Ideal) ℓ) (c : Dev nD) (G : S4x4096x256.Idx → EReal)
    (hout : ∀ t : Fin cfg0.N, t.val % 4 = 3 → ∀ (p : Fin 2048) (e : Fin 256),
      (outsAt0 m c t.val t.isLt).1 (ix3 (0 : Fin 1) p e) = G (ix3 (bOf t) (rowOf t p) e)) :
    (dats m 0 c).arrAt 8 cfg0.N = G :=
  (dats m 0 c).arrAt_eq_of_cover 8 G (fun t hf => flushed_eq m c G hout t hf) cover8

end Cert.KernelIdeal.Final

end
-- ==== Proof.lean ====
/-
  A fused projection + attention kernel against plain attention, equal over the extended reals on finite inputs.

  The kernel computes, per (batch, query tile), `q = (Q·Wqᵀ + bq) / 16` once and then visits the four key tiles,
  keeping a running row maximum `m`, denominator `l` and numerator `acc` of the softmax of `q·kᵀ`
  (`k = K·Wkᵀ + bk`, `v = K·Wvᵀ + bv` recomputed per tile), rescaling by `exp (m − m')` whenever the maximum moves, and
  writes `acc / l` after the last tile. The reference computes `softmax ((q·kᵀ) / √256) · v` with the global row
  maximum subtracted. On finite inputs every quantity is a real number, a softmax does not depend on the shift
  subtracted before exponentiating, and `√256 = 16`: both are `(∑ exp (s g) · v g) / (∑ exp (s g))` over all keys
  (`Attn.attn`). The frames of the two kernel programs are the generated ones; the reference's frame is its
  generated run; the idealization rewrote nothing.
-/
import proofs.«142110_j22110491639926_2_alg».proof.Defs
import proofs.«142110_j22110491639926_2_alg».proof.Proof.Gen.Kernel
import proofs.«142110_j22110491639926_2_alg».proof.Proof.Gen.Kernel.Frame
import proofs.«142110_j22110491639926_2_alg».proof.Proof.Gen.KernelIdeal
import proofs.«142110_j22110491639926_2_alg».proof.Proof.Gen.KernelIdeal.Frame
import proofs.«142110_j22110491639926_2_alg».proof.Proof.Gen.KernelIdeal.Value
import proofs.«142110_j22110491639926_2_alg».proof.Proof.Gen.ReferenceIdeal
import proofs.«142110_j22110491639926_2_alg».proof.Proof.Gen.ReferenceIdeal.Run
import proofs.«142110_j22110491639926_2_alg».proof.Proof.Gen.ReferenceIdeal.Read
import proofs.«142110_j22110491639926_2_alg».proof.Proof.Gen.Pre_finite_inputs
import proofs.«142110_j22110491639926_2_alg».proof.Proof.Finite
import proofs.«142110_j22110491639926_2_alg».proof.Proof.RefValue
import proofs.«142110_j22110491639926_2_alg».proof.Proof.Inv
import proofs.«142110_j22110491639926_2_alg».proof.Proof.Final
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with attention of the (real) arguments in their result arrays. -/
theorem algebraic : Cert.algebraic_KernelIdeal_ReferenceIdeal := by
  intro m ρ m' ρ' hpre hagree
  choose x0 x1 x2 x4 x6 x3 x5 x7 h0 h1 h2 h3 h4 h5 h6 h7 using fun c => Cert.Proof.Finite.real_inputs m hpre c
  have H : ∀ c, Cert.KernelIdeal.Inv.RealArgs m c (x0 c) (x1 c) (x2 c) (x3 c) (x4 c) (x5 c) (x6 c) (x7 c) :=
    fun c => ⟨h0 c, h1 c, h2 c, h3 c, h4 c, h5 c, h6 c, h7 c⟩
  refine ⟨fun c => Cert.KernelIdeal.Inv.G (x0 c) (x1 c) (x2 c) (x4 c) (x6 c) (x3 c) (x5 c) (x7 c), ?_, ?_⟩
  · exact (θ_run Cert.KernelIdeal.defs _ _).mono
      (fun r h c => ⟨(h c).1.trans (Cert.KernelIdeal.Final.final_of m c _ (Cert.KernelIdeal.Inv.out_block (H c))), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, (hagree c).1, (hagree c).2.1, (hagree c).2.2.1, (hagree c).2.2.2.1,
      (hagree c).2.2.2.2.1, (hagree c).2.2.2.2.2.1, (hagree c).2.2.2.2.2.2.1, (hagree c).2.2.2.2.2.2.2,
      h0 c, h1 c, h2 c, h3 c, h4 c, h5 c, h6 c, h7 c]
    exact Cert.ReferenceIdeal.RefValue.ref_attn (x0 c) (x1 c) (x2 c) (x4 c) (x6 c) (x3 c) (x5 c) (x7 c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
